-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x512x1024 .f32) (main_arg1 : FVec F S32x1024x1024 .f32) (main_arg2 : FVec F S1024x1024 .f32) (main_arg3 : FVec F S1024x2048 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S32x512x2048 : Shape := ⟨3, ![32, 512, 2048]⟩
abbrev S1x128x1024 : Shape := ⟨3, ![1, 128, 1024]⟩
abbrev S1x1024x1024 : Shape := ⟨3, ![1, 1024, 1024]⟩
abbrev S1x128x2048 : Shape := ⟨3, ![1, 128, 2048]⟩
abbrev S128x1024 : Shape := ⟨2, ![128, 1024]⟩
abbrev S128 : Shape := ⟨1, ![128]⟩
abbrev S128x1 : Shape := ⟨2, ![128, 1]⟩
abbrev S128x2048 : Shape := ⟨2, ![128, 2048]⟩
abbrev S512x32x1024 : Shape := ⟨3, ![512, 32, 1024]⟩
abbrev S512x32x2048 : Shape := ⟨3, ![512, 32, 2048]⟩

abbrev nBuf : Space → Nat
  | .hbm => 13
  | .vmem => 12
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x1024x1024, .bf16⟩
  | .hbm, ⟨5, _⟩ => ⟨S1024x1024, .bf16⟩
  | .hbm, ⟨6, _⟩ => ⟨S1024x2048, .bf16⟩
  | .hbm, ⟨7, _⟩ => ⟨S32x512x1024, .f32⟩
  | .hbm, ⟨8, _⟩ => ⟨S32x512x1024, .f32⟩
  | .hbm, ⟨9, _⟩ => ⟨S32x512x2048, .f32⟩
  | .hbm, ⟨10, _⟩ => ⟨S512x32x1024, .f32⟩
  | .hbm, ⟨11, _⟩ => ⟨S512x32x1024, .f32⟩
  | .hbm, ⟨12, _⟩ => ⟨S512x32x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x2048, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x2048, .f32⟩
  | .local _ .vmem, ⟨11, _⟩ => ⟨S1x128x2048, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  concatenates_S128x1024_S128x1024_S128x2048_d1 : Shape.Concatenates [S128x1024, S128x1024] S128x2048 1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  transposes_S32x512x1024_S512x32x1024_1_0_2 : S32x512x1024.Transposes [1, 0, 2] S512x32x1024
  transposes_S32x512x2048_S512x32x2048_1_0_2 : S32x512x2048.Transposes [1, 0, 2] S512x32x2048
  dot_S128x1024_S1024x1024_S128x1024_1_1_0_0_n_n_wf : DotDims.WF S128x1024 S1024x1024 S128x1024 [1] [1] [0] [0] [] []
  dot_S128x1024_S1024x1024_S128x1024_1_0_0_1_n_n_wf : DotDims.WF S128x1024 S1024x1024 S128x1024 [1] [0] [0] [1] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x512x1024.size a
  hwx0_0 : ∀ i : grid0.Coords, EltTy.bits .f32 = 32 ∨ (Rect.block (s := S32x512x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .bf16 = 32 ∨ (Rect.block (s := S32x1024x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S32x512x1024.size a
  hwx0_4 : ∀ i : grid0.Coords, EltTy.bits .f32 = 32 ∨ (Rect.block (s := S32x512x1024) S1x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1024.size a ≤ S32x512x1024.size a
  hwx0_5 : ∀ i : grid0.Coords, EltTy.bits .f32 = 32 ∨ (Rect.block (s := S32x512x1024) S1x128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x2048.size a ≤ S32x512x2048.size a
  hwx0_6 : ∀ i : grid0.Coords, EltTy.bits .f32 = 32 ∨ (Rect.block (s := S32x512x2048) S1x128x2048.size (cc0_transform_6 i) (hinb0_6 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩
abbrev S32x512 : Shape := ⟨2, ![32, 512]⟩
abbrev S32x512x1 : Shape := ⟨3, ![32, 512, 1]⟩
abbrev S32x512x2048 : Shape := ⟨3, ![32, 512, 2048]⟩
abbrev S512x32x1024 : Shape := ⟨3, ![512, 32, 1024]⟩
abbrev S512x32x2048 : Shape := ⟨3, ![512, 32, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x512x1024, .f32⟩
  | .hbm, ⟨5, _⟩ => ⟨S32x512x1024, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x512x1024, .f32⟩
  | .hbm, ⟨13, _⟩ => ⟨S32x512x1024, .f32⟩
  | .hbm, ⟨14, _⟩ => ⟨S32x512x1024, .f32⟩
  | .hbm, ⟨15, _⟩ => ⟨S_, .f32⟩
  | .hbm, ⟨16, _⟩ => ⟨S32x512, .f32⟩
  | .hbm, ⟨17, _⟩ => ⟨S32x512x1, .f32⟩
  | .hbm, ⟨18, _⟩ => ⟨S32x512x1024, .f32⟩
  | .hbm, ⟨19, _⟩ => ⟨S32x512x1024, .f32⟩
  | .hbm, ⟨20, _⟩ => ⟨S32x512x1024, .f32⟩
  | .hbm, ⟨21, _⟩ => ⟨S32x512x2048, .f32⟩
  | .hbm, ⟨22, _⟩ => ⟨S32x512x1024, .f32⟩
  | .hbm, ⟨23, _⟩ => ⟨S32x512x1024, .f32⟩
  | .hbm, ⟨24, _⟩ => ⟨S512x32x1024, .f32⟩
  | .hbm, ⟨25, _⟩ => ⟨S512x32x2048, .f32⟩
  | .hbm, ⟨26, _⟩ => ⟨S512x32x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S32x512x1024_S32x512_d2 : S32x512x1024.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x1024_0_1_2 : S32x512x1.BroadcastsInDim S32x512x1024 (![0, 1, 2] : Fin 3 → Fin S32x512x1024.rank)
  concatenates_S32x512x1024_S32x512x1024_S32x512x2048_d2 : Shape.Concatenates [S32x512x1024, S32x512x1024] S32x512x2048 2
  transposes_S32x512x1024_S512x32x1024_1_0_2 : S32x512x1024.Transposes [1, 0, 2] S512x32x1024
  transposes_S32x512x2048_S512x32x2048_1_0_2 : S32x512x2048.Transposes [1, 0, 2] S512x32x2048
  dot_S32x512x1024_S1024x1024_S32x512x1024_2_1_01_0_n_n_wf : DotDims.WF S32x512x1024 S1024x1024 S32x512x1024 [2] [1] [0, 1] [0] [] []
  dot_S32x512x1024_S32x1024x1024_S32x512x1024_2_2_1_1_0_0_wf : DotDims.WF S32x512x1024 S32x1024x1024 S32x512x1024 [2] [2] [1] [1] [0] [0]
  dot_S32x512x1024_S32x1024x1024_S32x512x1024_2_1_1_2_0_0_wf : DotDims.WF S32x512x1024 S32x1024x1024 S32x512x1024 [2] [1] [1] [2] [0] [0]
  dot_S32x512x2048_S1024x2048_S32x512x1024_2_1_01_0_n_n_wf : DotDims.WF S32x512x2048 S1024x2048 S32x512x1024 [2] [1] [0, 1] [0] [] []

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf
def dot_S32x512x2048_S1024x2048_S32x512x1024_2_1_01_0_n_n : DotDims S32x512x2048 S1024x2048 S32x512x1024 where
  lhsContracting := [2]
  rhsContracting := [1]
  lhsNonContracting := [0, 1]
  rhsNonContracting := [0]
  lhsBatch := []
  rhsBatch := []
  wf := dot_S32x512x2048_S1024x2048_S32x512x1024_2_1_01_0_n_n_wf

class Facts : Prop extends Facts₀ where

variable [Facts]
-- ==== Proof.Spec.lean ====
/-
  One attention row, as extended reals.

  For one batch entry and one target position the program reads a row `x` of the input (1024 numbers), the batch entry's
  context `ctx` (1024 source positions by 1024 features) and the two weight matrices, and computes

    query e   = Σ_d x d · W_in e d
    score s   = Σ_d query d · ctx s d
    top       = the largest score (the fold of `max` from -∞)
    expo s    = exp (score s - top)
    mass      = Σ_s expo s
    weight s  = expo s / mass                      (the softmax of the scores)
    blend d   = Σ_s weight s · ctx s d
    joined f  = blend f for f < 1024, x (f - 1024) otherwise
    out d     = tanh (Σ_f joined f · W_out d f)

  The three results are `out`, `weight` and `joined` of row (b, t), stored at (t, b, ·): the target position first.
  Everything here is stated over plain families indexed by `Fin`, so that the tiled program and the whole-array
  program can each be read against it; no finiteness is assumed anywhere, the two programs being the same
  composition of sums, one maximum, one quotient and two transcendental functions.
-/
import Idealize.ShloMosaic.PureOps.Ideal
import Idealize.ShloMosaic.Lib.ValueIdx

noncomputable section

open scoped BigOperators

namespace Cert.Attn

open Idealize.ShloMosaic Idealize.ShloMosaic.ValueIdx

/-! ## One row -/

section Row

variable (x : Fin 1024 → EReal) (win : Fin 1024 → Fin 1024 → EReal) (ctx : Fin 1024 → Fin 1024 → EReal)
  (wout : Fin 1024 → Fin 2048 → EReal)

/-- The row projected by the input weights: `query e = Σ_d x d · W_in e d`. -/
def query (e : Fin 1024) : EReal := ∑ d : Fin 1024, x d * win e d

/-- The score of source position `s`: the projected row against that position's context features. -/
def score (s : Fin 1024) : EReal := ∑ d : Fin 1024, query x win d * ctx s d

/-- The largest score of the row, folded from the word that denotes -∞. -/
def top : EReal :=
  (Finset.univ : Finset (Fin 1024)).fold max (Ideal.ofBits .f32 0xFF800000#32) (score x win ctx)

/-- The exponential of a score's distance below the largest. -/
def expo (s : Fin 1024) : EReal := Ideal.exp (score x win ctx s - top x win ctx)

/-- The sum of the row's exponentials. -/
def mass : EReal := ∑ s : Fin 1024, expo x win ctx s

/-- The attention weight of source position `s`: the softmax of the scores. -/
def weight (s : Fin 1024) : EReal := Ideal.div (expo x win ctx s) (mass x win ctx)

/-- The context blended by the weights. -/
def blend (d : Fin 1024) : EReal := ∑ s : Fin 1024, weight x win ctx s * ctx s d

/-- The blended context followed by the input row itself. -/
def joined (f : Fin 2048) : EReal :=
  if h : f.val < 1024 then blend x win ctx ⟨f.val, h⟩ else x ⟨f.val - 1024, by omega⟩

/-- The output row: `tanh` of the joined row against the output weights. -/
def out (d : Fin 1024) : EReal := Ideal.tanh (∑ f : Fin 2048, joined x win ctx f * wout d f)

end Row

/-! ## The arrays -/

/-- Row `t` of batch entry `b` of a [32, 512, 1024] array. -/
def rowOf (X : (⟨3, ![32, 512, 1024]⟩ : Shape).Idx → EReal) (b : Fin 32) (t : Fin 512) : Fin 1024 → EReal :=
  fun d => X (ix3 b t d)

/-- Batch entry `b` of a [32, 1024, 1024] array, as a matrix. -/
def slabOf (C : (⟨3, ![32, 1024, 1024]⟩ : Shape).Idx → EReal) (b : Fin 32) : Fin 1024 → Fin 1024 → EReal :=
  fun s d => C (ix3 b s d)

/-- A rank-2 array as a matrix. -/
def matOf {n k : Nat} (W : (⟨2, ![n, k]⟩ : Shape).Idx → EReal) : Fin n → Fin k → EReal :=
  fun e d => W (ix2 e d)

section Arrays

variable (X : (⟨3, ![32, 512, 1024]⟩ : Shape).Idx → EReal) (C : (⟨3, ![32, 1024, 1024]⟩ : Shape).Idx → EReal)
  (Win : (⟨2, ![1024, 1024]⟩ : Shape).Idx → EReal) (Wout : (⟨2, ![1024, 2048]⟩ : Shape).Idx → EReal)

/-- The attention weights of row (b, t). -/
def weightAt (b : Fin 32) (t : Fin 512) (s : Fin 1024) : EReal := weight (rowOf X b t) (matOf Win) (slabOf C b) s

/-- The joined row of row (b, t). -/
def joinedAt (b : Fin 32) (t : Fin 512) (f : Fin 2048) : EReal := joined (rowOf X b t) (matOf Win) (slabOf C b) f

/-- The output row of row (b, t). -/
def outAt (b : Fin 32) (t : Fin 512) (d : Fin 1024) : EReal :=
  out (rowOf X b t) (matOf Win) (slabOf C b) (matOf Wout) d

/-- The first result, [512, 32, 1024]: the output rows, target position first. -/
def resOut : (⟨3, ![512, 32, 1024]⟩ : Shape).Idx → EReal :=
  fun j => outAt X C Win Wout ⟨(j 1).val, (j 1).isLt⟩ ⟨(j 0).val, (j 0).isLt⟩ ⟨(j 2).val, (j 2).isLt⟩

/-- The second result, [512, 32, 1024]: the attention weights, target position first. -/
def resWeight : (⟨3, ![512, 32, 1024]⟩ : Shape).Idx → EReal :=
  fun j => weightAt X C Win ⟨(j 1).val, (j 1).isLt⟩ ⟨(j 0).val, (j 0).isLt⟩ ⟨(j 2).val, (j 2).isLt⟩

/-- The third result, [512, 32, 2048]: the joined rows, target position first. -/
def resJoined : (⟨3, ![512, 32, 2048]⟩ : Shape).Idx → EReal :=
  fun j => joinedAt X C Win ⟨(j 1).val, (j 1).isLt⟩ ⟨(j 0).val, (j 0).isLt⟩ ⟨(j 2).val, (j 2).isLt⟩

end Arrays

end Cert.Attn

end
-- ==== Proof.RefScore.lean ====
/-
  The reference's scores and their row maximum.

  The first contraction of the whole-array program sums, for batch entry b, target position t and feature e, the input
  row (b, t) against row e of the input weights: the projected row. The second sums the projected row against the
  context features of source position s of the same batch entry: the score. The maximum over s is folded from the word
  that denotes -∞, and the program then takes the maximum with that same word once more; the word is below (or equal
  to) a fold that starts from it, so the second maximum changes nothing and the word is never evaluated.
-/
import proofs.«181945_j1580547975047_1_alg».proof.Proof.Spec
import proofs.«181945_j1580547975047_1_alg».proof.Proof.Gen.ReferenceIdeal.Read
import Idealize.ShloMosaic.PureOps.Reduce

noncomputable section

open scoped BigOperators

namespace Cert.Attn.Ref

open Cert.ReferenceIdeal Cert.ReferenceIdeal.Gen Cert.ReferenceIdeal.Read Cert.Attn Idealize.ShloMosaic Idealize.ShloMosaic.ValueIdx
  Idealize.ShloMosaic.TcCoe

variable (x0 : (⟨S32x512x1024, .f32⟩ : BufTy).Contents (Elt Ideal)) (x1 : (⟨S32x1024x1024, .f32⟩ : BufTy).Contents (Elt Ideal))
  (x2 : (⟨S1024x1024, .f32⟩ : BufTy).Contents (Elt Ideal))

/-- The first contraction at (b, t, e) is the projected row's entry e. -/
theorem projected_eq_query (b : Fin 32) (t : Fin 512) (e : Fin 1024) :
    val_main_v0 (F := Ideal) x0 x2 (ix3 b t e) = query (rowOf x0 b t) (matOf x2) e := by
  rw [val_main_v0_apply]
  unfold query rowOf matOf
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 e k :=
    funext fun a => Fin.ext (by match a with | ⟨0, _⟩ => rfl | ⟨1, _⟩ => rfl)
  rw [el, er]

/-- The second contraction at (b, t, s) is the score of source position s. -/
theorem scores_eq_score (b : Fin 32) (t : Fin 512) (s : Fin 1024) :
    val_main_v1 (F := Ideal) x0 x1 x2 (ix3 b t s) = score (rowOf x0 b t) (matOf x2) (slabOf x1 b) s := by
  rw [val_main_v1_apply]
  unfold score slabOf
  refine Finset.sum_congr rfl fun k _ => ?_
  have el : lidx_main_v1 (ix3 b t s) k = ix3 b t k :=
    funext fun a => Fin.ext (by match a with | ⟨0, _⟩ => rfl | ⟨1, _⟩ => rfl | ⟨2, _⟩ => rfl)
  have er : ridx_main_v1 (ix3 b t s) k = ix3 b s k :=
    funext fun a => Fin.ext (by match a with | ⟨0, _⟩ => rfl | ⟨1, _⟩ => rfl | ⟨2, _⟩ => rfl)
  rw [el, er, projected_eq_query]

/-- Row (b, t) with coordinate k put back on the reduced last axis is (b, t, k). -/
theorem lift_last (h : S32x512x1024.Reduces [2] S32x512) (b : Fin 32) (t : Fin 512) (k : Fin (S32x512x1024.size 2)) :
    h.lift (ix2 b t) k = ix3 b t (⟨k.val, k.isLt⟩ : Fin 1024) := by
  funext c; apply Fin.ext
  fin_cases c <;> rfl

/-- The maximum-reduce over the last axis at (b, t) is the fold of max over the row's scores. -/
theorem rowmax_eq_top (b : Fin 32) (t : Fin 512) :
    val_main_v2 (F := Ideal) x0 x1 x2 (ix2 b t) = top (rowOf x0 b t) (matOf x2) (slabOf x1 b) := by
  have h : S32x512x1024.Reduces [2] S32x512 := by decide
  unfold val_main_v2
  rw [Host.reduce_eq_fold_single FloatOps.maximumf _ _ reducesTo_S32x512x1024_S32x512_d2 h h_S_]
  unfold top
  have hf : (val_main_v1 (F := Ideal) x0 x1 x2 ∘ h.lift (ix2 b t))
      = fun k : Fin 1024 => score (rowOf x0 b t) (matOf x2) (slabOf x1 b) k :=
    funext fun k => by
      show val_main_v1 (F := Ideal) x0 x1 x2 (h.lift (ix2 b t) k) = _
      rw [lift_last h b t k, scores_eq_score]
      rfl
  exact congrArg (fun f => Finset.fold max (Ideal.ofBits .f32 0xFF800000#32) f (Finset.univ : Finset (Fin 1024))) hf

/-- The maximum with the starting word taken once more leaves the row's maximum as it is. -/
theorem clamped_eq_top (b : Fin 32) (t : Fin 512) :
    val_main_v4 (F := Ideal) x0 x1 x2 (ix2 b t) = top (rowOf x0 b t) (matOf x2) (slabOf x1 b) := by
  rw [val_main_v4_apply, val_main_v3_apply, val_main_cst_0_apply, rowmax_eq_top]
  show max (Ideal.ofBits .f32 0xFF800000#32) (top (rowOf x0 b t) (matOf x2) (slabOf x1 b)) = _
  refine max_eq_right ?_
  unfold top
  exact (Finset.le_fold_max _).2 (Or.inl le_rfl)

end Cert.Attn.Ref

end
-- ==== Proof.RefWeight.lean ====
/-
  The reference's attention weights.

  The row maximum of (b, t) is spread back along the source positions by two broadcasts (to a column, then along the
  row), each of which reads its operand at the same (b, t). The score less the maximum is exponentiated; the float sum
  over the source positions starts from the zero word, which denotes 0, so it is the plain sum; that sum is spread back
  the same way and divides each exponential. That is the softmax of the scores.
-/
import proofs.«181945_j1580547975047_1_alg».proof.Proof.RefScore

noncomputable section

open scoped BigOperators

namespace Cert.Attn.Ref

open Cert.ReferenceIdeal Cert.ReferenceIdeal.Gen Cert.ReferenceIdeal.Read Cert.Attn Idealize.ShloMosaic Idealize.ShloMosaic.ValueIdx
  Idealize.ShloMosaic.TcCoe

variable (x0 : (⟨S32x512x1024, .f32⟩ : BufTy).Contents (Elt Ideal)) (x1 : (⟨S32x1024x1024, .f32⟩ : BufTy).Contents (Elt Ideal))
  (x2 : (⟨S1024x1024, .f32⟩ : BufTy).Contents (Elt Ideal))

/-- The two broadcasts of the row maximum read it at (b, t). -/
theorem spread_max_index (b : Fin 32) (t : Fin 512) (s : Fin 1024) :
    idx_main_v5 (idx_main_v6 (ix3 b t s)) = ix2 b t :=
  funext fun a => Fin.ext (by match a with | ⟨0, _⟩ => rfl | ⟨1, _⟩ => rfl)

/-- The exponential stage at (b, t, s) is the exponential of the score's distance below the row maximum. -/
theorem exps_eq_expo (b : Fin 32) (t : Fin 512) (s : Fin 1024) :
    val_main_v8 (F := Ideal) x0 x1 x2 (ix3 b t s) = expo (rowOf x0 b t) (matOf x2) (slabOf x1 b) s := by
  rw [val_main_v8_apply, val_main_v7_apply, val_main_v6_apply, val_main_v5_apply, spread_max_index, clamped_eq_top,
    scores_eq_score]
  rfl

/-- The float sum over the source positions at (b, t) is the sum of the row's exponentials. -/
theorem sums_eq_mass (b : Fin 32) (t : Fin 512) :
    val_main_v9 (F := Ideal) x0 x1 x2 (ix2 b t) = mass (rowOf x0 b t) (matOf x2) (slabOf x1 b) := by
  rw [val_main_v9_apply, val_main_cst_1_apply, Ideal.ofBits_def, Ideal.ofBits_zero_f32, zero_add]
  unfold mass
  refine Finset.sum_congr rfl fun k _ => ?_
  have e : idx_main_v9 (ix2 b t) k = ix3 b t k :=
    funext fun a => Fin.ext (by match a with | ⟨0, _⟩ => rfl | ⟨1, _⟩ => rfl | ⟨2, _⟩ => rfl)
  rw [e, exps_eq_expo]

/-- The two broadcasts of the row sum read it at (b, t). -/
theorem spread_sum_index (b : Fin 32) (t : Fin 512) (s : Fin 1024) :
    idx_main_v10 (idx_main_v11 (ix3 b t s)) = ix2 b t :=
  funext fun a => Fin.ext (by match a with | ⟨0, _⟩ => rfl | ⟨1, _⟩ => rfl)

/-- The quotient stage at (b, t, s) is the attention weight of source position s. -/
theorem quotients_eq_weight (b : Fin 32) (t : Fin 512) (s : Fin 1024) :
    val_main_v12 (F := Ideal) x0 x1 x2 (ix3 b t s) = weightAt x0 x1 x2 b t s := by
  rw [val_main_v12_apply, val_main_v11_apply, val_main_v10_apply, spread_sum_index, sums_eq_mass, exps_eq_expo]
  rfl

end Cert.Attn.Ref

end
-- ==== Proof.RefRow.lean ====
/-
  The reference is the specification.

  The third contraction blends the context of batch entry b by the attention weights of row (b, t). The concatenation
  along the last axis puts the blended context in features 0 … 1023 and the input row in features 1024 … 2047: a
  feature below 1024 reads the first piece at the same coordinates, any other reads the second piece 1024 lower. The
  last contraction sums that joined row against row d of the output weights and the hyperbolic tangent is taken. The
  three results are the output rows, the weights and the joined rows with the first two axes exchanged, so that the
  entry at (t, b, ·) is that of row (b, t).
-/
import proofs.«181945_j1580547975047_1_alg».proof.Proof.RefWeight

noncomputable section

open scoped BigOperators

namespace Cert.Attn.Ref

open Cert.ReferenceIdeal Cert.ReferenceIdeal.Gen Cert.ReferenceIdeal.Read Cert.Attn Idealize.ShloMosaic Idealize.ShloMosaic.ValueIdx
  Idealize.ShloMosaic.TcCoe

variable (x0 : (⟨S32x512x1024, .f32⟩ : BufTy).Contents (Elt Ideal)) (x1 : (⟨S32x1024x1024, .f32⟩ : BufTy).Contents (Elt Ideal))
  (x2 : (⟨S1024x1024, .f32⟩ : BufTy).Contents (Elt Ideal)) (x3 : (⟨S1024x2048, .f32⟩ : BufTy).Contents (Elt Ideal))

/-- The third contraction at (b, t, d) is the blended context's feature d. -/
theorem blended_eq_blend (b : Fin 32) (t : Fin 512) (d : Fin 1024) :
    val_main_v13 (F := Ideal) x0 x1 x2 (ix3 b t d) = blend (rowOf x0 b t) (matOf x2) (slabOf x1 b) d := by
  rw [val_main_v13_apply]
  unfold blend
  refine Finset.sum_congr rfl fun k _ => ?_
  have el : lidx_main_v13 (ix3 b t d) k = ix3 b t k :=
    funext fun a => Fin.ext (by match a with | ⟨0, _⟩ => rfl | ⟨1, _⟩ => rfl | ⟨2, _⟩ => rfl)
  have er : ridx_main_v13 (ix3 b t d) k = ix3 b k d :=
    funext fun a => Fin.ext (by match a with | ⟨0, _⟩ => rfl | ⟨1, _⟩ => rfl | ⟨2, _⟩ => rfl)
  rw [el, er, quotients_eq_weight]
  rfl

/-- The concatenation at (b, t, f) is the joined row's feature f. -/
theorem concatenated_eq_joined (b : Fin 32) (t : Fin 512) (f : Fin 2048) :
    val_main_v14 (F := Ideal) x0 x1 x2 (ix3 b t f) = joinedAt x0 x1 x2 b t f := by
  unfold val_main_v14 joinedAt joined
  by_cases hf : f.val < 1024
  · rw [dif_pos hf,
      concatenate_pair_apply_left (2 : Fin S32x512x2048.rank) (val_main_v13 (F := Ideal) x0 x1 x2) x0
        concatenates_S32x512x1024_S32x512x1024_S32x512x2048_d2 (ix3 b t f) rfl (ix3 b t (⟨f.val, hf⟩ : Fin 1024))
        (fun a => by match a with | ⟨0, _⟩ => rfl | ⟨1, _⟩ => rfl | ⟨2, _⟩ => rfl),
      blended_eq_blend]
  · rw [dif_neg hf,
      concatenate_pair_apply_right (2 : Fin S32x512x2048.rank) (val_main_v13 (F := Ideal) x0 x1 x2) x0
        concatenates_S32x512x1024_S32x512x1024_S32x512x2048_d2 (ix3 b t f) rfl rfl
        (ix3 b t (⟨f.val - 1024, by have := f.isLt; omega⟩ : Fin 1024))
        (fun a ha => by
          match a, ha with
          | ⟨0, _⟩, _ => rfl
          | ⟨1, _⟩, _ => rfl
          | ⟨2, _⟩, ha => exact absurd rfl ha)
        (by show f.val - 1024 + 1024 = f.val; omega)]
    rfl

/-- The output stage at (b, t, d) is the output row's entry d. -/
theorem outputs_eq_out (b : Fin 32) (t : Fin 512) (d : Fin 1024) :
    val_main_v16 (F := Ideal) x0 x1 x2 x3 (ix3 b t d) = outAt x0 x1 x2 x3 b t d := by
  rw [val_main_v16_apply, val_main_v15_apply]
  unfold outAt out
  show Ideal.tanh _ = Ideal.tanh _
  refine congrArg Ideal.tanh (Finset.sum_congr rfl fun k _ => ?_)
  have el : lidx_main_v15 (ix3 b t d) k = ix3 b t k :=
    funext fun a => Fin.ext (by match a with | ⟨0, _⟩ => rfl | ⟨1, _⟩ => rfl | ⟨2, _⟩ => rfl)
  have er : ridx_main_v15 (ix3 b t d) k = ix2 d k :=
    funext fun a => Fin.ext (by match a with | ⟨0, _⟩ => rfl | ⟨1, _⟩ => rfl)
  rw [el, er, concatenated_eq_joined]
  rfl

/-- The first result: the output rows, target position first. -/
theorem ref_out (x0 : (⟨S32x512x1024, .f32⟩ : BufTy).Contents (Elt Ideal)) (x1 : (⟨S32x1024x1024, .f32⟩ : BufTy).Contents (Elt Ideal))
    (x2 : (⟨S1024x1024, .f32⟩ : BufTy).Contents (Elt Ideal)) (x3 : (⟨S1024x2048, .f32⟩ : BufTy).Contents (Elt Ideal)) :
    val_main_v17 (F := Ideal) x0 x1 x2 x3 = resOut x0 x1 x2 x3 := by
  funext j
  have e : idx_main_v17 j = ix3 (⟨(j 1).val, (j 1).isLt⟩ : Fin 32) (⟨(j 0).val, (j 0).isLt⟩ : Fin 512) (⟨(j 2).val, (j 2).isLt⟩ : Fin 1024) :=
    funext fun a => Fin.ext (by match a with | ⟨0, _⟩ => rfl | ⟨1, _⟩ => rfl | ⟨2, _⟩ => rfl)
  rw [val_main_v17_apply, e, outputs_eq_out]
  rfl

/-- The second result: the attention weights, target position first. -/
theorem ref_weight (x0 : (⟨S32x512x1024, .f32⟩ : BufTy).Contents (Elt Ideal)) (x1 : (⟨S32x1024x1024, .f32⟩ : BufTy).Contents (Elt Ideal))
    (x2 : (⟨S1024x1024, .f32⟩ : BufTy).Contents (Elt Ideal)) :
    val_main_v19 (F := Ideal) x0 x1 x2 = resWeight x0 x1 x2 := by
  funext j
  have e : idx_main_v19 j = ix3 (⟨(j 1).val, (j 1).isLt⟩ : Fin 32) (⟨(j 0).val, (j 0).isLt⟩ : Fin 512) (⟨(j 2).val, (j 2).isLt⟩ : Fin 1024) :=
    funext fun a => Fin.ext (by match a with | ⟨0, _⟩ => rfl | ⟨1, _⟩ => rfl | ⟨2, _⟩ => rfl)
  rw [val_main_v19_apply, e, quotients_eq_weight]
  rfl

/-- The third result: the joined rows, target position first. -/
theorem ref_joined (x0 : (⟨S32x512x1024, .f32⟩ : BufTy).Contents (Elt Ideal)) (x1 : (⟨S32x1024x1024, .f32⟩ : BufTy).Contents (Elt Ideal))
    (x2 : (⟨S1024x1024, .f32⟩ : BufTy).Contents (Elt Ideal)) :
    val_main_v18 (F := Ideal) x0 x1 x2 = resJoined x0 x1 x2 := by
  funext j
  have e : idx_main_v18 j = ix3 (⟨(j 1).val, (j 1).isLt⟩ : Fin 32) (⟨(j 0).val, (j 0).isLt⟩ : Fin 512) (⟨(j 2).val, (j 2).isLt⟩ : Fin 2048) :=
    funext fun a => Fin.ext (by match a with | ⟨0, _⟩ => rfl | ⟨1, _⟩ => rfl | ⟨2, _⟩ => rfl)
  rw [val_main_v18_apply, e, concatenated_eq_joined]
  rfl

end Cert.Attn.Ref

end
-- ==== Proof.BlockReads.lean ====
/-
  The blocks a grid point works on, read off the arrays.

  The grid has 32 × 4 points. Point t works on batch entry t / 4 and on the row tile t % 4, 128 rows tall: its input
  block is rows (t % 4) · 128 … (t % 4) · 128 + 127 of that batch entry, its context block the batch entry's whole
  context, and the two weight matrices come whole at every point. Each output block sits where the input block sits.
  A block's element at a coordinate y is the array's element at block index × block extent + y on every axis.
-/
import proofs.«181945_j1580547975047_1_alg».proof.Proof.Gen.KernelIdeal.Frame
import proofs.«181945_j1580547975047_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Attn.Blocks

open Cert.KernelIdeal Cert.KernelIdeal.Gen Cert.Attn

variable (m : (ℓ : Loc nD τ sig) → Buf (Elt Ideal) ℓ)

/-- The printed index maps, decided over the grid: point t is at batch entry t / 4 and row tile t % 4 in the input
    window and in the three output windows, at batch entry t / 4 in the context window, and at the origin in the
    two weight windows. -/
theorem index_maps : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

/-- Row p of the input block at point t is row (t % 4) · 128 + p of batch entry t / 4. -/
theorem row_read (c : Dev nD) (t : Fin cfg0.N) (p : Fin 128) (b : Fin 32) (r : Fin 512)
    (hb : b.val = t.val / 4) (hr : r.val = t.val % 4 * 128 + p.val) :
    (fun d : Fin 1024 => (iblk m c 0 t (ix3 (0 : Fin 1) p d) : EReal)) = rowOf (V m c main_arg0) b r := by
  obtain ⟨e0, e1, e2, -⟩ := index_maps t
  funext d
  show V m c main_arg0 (((cfg0.win 0).blk t).view.emb (ix3 (0 : Fin 1) p d)) = V m c main_arg0 (ix3 b r d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 128 + 1 * p.val = r.val; omega
  | ⟨2, _⟩ => show win0_0.index t (2 : Fin 3) * 1024 + 1 * d.val = d.val; omega

/-- The context block at point t is the whole context of batch entry t / 4. -/
theorem slab_read (c : Dev nD) (t : Fin cfg0.N) (b : Fin 32) (hb : b.val = t.val / 4) :
    (fun (s d : Fin 1024) => (iblk m c 1 t (ix3 (0 : Fin 1) s d) : EReal)) = slabOf (V m c main_v0) b := by
  obtain ⟨-, -, -, e0, e1, e2, -⟩ := index_maps t
  funext s d
  show V m c main_v0 (((cfg0.win 1).blk t).view.emb (ix3 (0 : Fin 1) s d)) = V m c main_v0 (ix3 b s d)
  refine congrArg (V m c main_v0) (funext fun a => Fin.ext ?_)
  match a with
  | ⟨0, _⟩ => show win0_1.index t (0 : Fin 3) * 1 + 1 * 0 = b.val; omega
  | ⟨1, _⟩ => show win0_1.index t (1 : Fin 3) * 1024 + 1 * s.val = s.val; omega
  | ⟨2, _⟩ => show win0_1.index t (2 : Fin 3) * 1024 + 1 * d.val = d.val; omega

/-- The input-weight block at any point is the whole input-weight matrix. -/
theorem win_read (c : Dev nD) (t : Fin cfg0.N) :
    (fun (e d : Fin 1024) => (iblk m c 2 t (ix2 e d) : EReal)) = matOf (V m c main_v1) := by
  obtain ⟨-, -, -, -, -, -, e0, e1, -⟩ := index_maps t
  funext e d
  show V m c main_v1 (((cfg0.win 2).blk t).view.emb (ix2 e d)) = V m c main_v1 (ix2 e d)
  refine congrArg (V m c main_v1) (funext fun a => Fin.ext ?_)
  match a with
  | ⟨0, _⟩ => show win0_2.index t (0 : Fin 2) * 1024 + 1 * e.val = e.val; omega
  | ⟨1, _⟩ => show win0_2.index t (1 : Fin 2) * 1024 + 1 * d.val = d.val; omega

/-- The output-weight block at any point is the whole output-weight matrix. -/
theorem wout_read (c : Dev nD) (t : Fin cfg0.N) :
    (fun (e : Fin 1024) (f : Fin 2048) => (iblk m c 3 t (ix2 e f) : EReal)) = matOf (V m c main_v2) := by
  obtain ⟨-, -, -, -, -, -, -, -, e0, e1, -⟩ := index_maps t
  funext e f
  show V m c main_v2 (((cfg0.win 3).blk t).view.emb (ix2 e f)) = V m c main_v2 (ix2 e f)
  refine congrArg (V m c main_v2) (funext fun a => Fin.ext ?_)
  match a with
  | ⟨0, _⟩ => show win0_3.index t (0 : Fin 2) * 1024 + 1 * e.val = e.val; omega
  | ⟨1, _⟩ => show win0_3.index t (1 : Fin 2) * 2048 + 1 * f.val = f.val; omega

end Cert.Attn.Blocks

end
-- ==== Proof.BodyProducts.lean ====
/-
  The three matrix products of the program, read at one entry.

  Each product accumulates into a zero block, so an entry of the result is the plain sum of products over the
  contracted axis. Two of the three contract the second axis of both operands (a row of the left operand against a row
  of the right one); the third contracts the left operand's second axis with the right operand's first (a row against a
  column).
-/
import proofs.«181945_j1580547975047_1_alg».proof.Proof.Gen.KernelIdeal.Skeleton
import Idealize.ShloMosaic.Lib.ValueIdx
import Idealize.ShloMosaic.PureOps.Ideal.Laws

noncomputable section

open scoped BigOperators
open Idealize.ShloMosaic Idealize.ShloMosaic.ValueIdx Idealize.ShloMosaic.TcCoe

namespace Cert.Attn.Body

open Cert.KernelIdeal Cert.KernelIdeal.Gen Cert.Attn

private theorem product_rows_apply_lhs0 (j : S128x1024.Idx) (c : dot_S128x1024_S1024x1024_S128x1024_1_1_0_0_n_n.contr.Idx) :
    (dot_S128x1024_S1024x1024_S128x1024_1_1_0_0_n_n.lhsIdx j c 0).val = (j 0).val := by
  unfold DotDims.lhsIdx
  rw [dif_neg (show ¬(0 : Fin S128x1024.rank) ∈ dot_S128x1024_S1024x1024_S128x1024_1_1_0_0_n_n.lhsBatch by decide),
    dif_pos (show (0 : Fin S128x1024.rank) ∈ dot_S128x1024_S1024x1024_S128x1024_1_1_0_0_n_n.lhsNonContracting by decide)]
  rfl

private theorem product_rows_apply_lhs1 (j : S128x1024.Idx) (c : dot_S128x1024_S1024x1024_S128x1024_1_1_0_0_n_n.contr.Idx) :
    (dot_S128x1024_S1024x1024_S128x1024_1_1_0_0_n_n.lhsIdx j c 1).val = (c ⟨0, by decide⟩).val :=
  dot_S128x1024_S1024x1024_S128x1024_1_1_0_0_n_n.lhsIdx_val_of_single rfl j c

private theorem product_rows_apply_rhsN (j : S128x1024.Idx) (c : dot_S128x1024_S1024x1024_S128x1024_1_1_0_0_n_n.contr.Idx) :
    (dot_S128x1024_S1024x1024_S128x1024_1_1_0_0_n_n.rhsIdx j c 0).val = (j 1).val := by
  unfold DotDims.rhsIdx
  rw [dif_neg (show ¬(0 : Fin S1024x1024.rank) ∈ dot_S128x1024_S1024x1024_S128x1024_1_1_0_0_n_n.rhsBatch by decide),
    dif_pos (show (0 : Fin S1024x1024.rank) ∈ dot_S128x1024_S1024x1024_S128x1024_1_1_0_0_n_n.rhsNonContracting by decide)]
  rfl

private theorem product_rows_apply_rhsC (j : S128x1024.Idx) (c : dot_S128x1024_S1024x1024_S128x1024_1_1_0_0_n_n.contr.Idx) :
    (dot_S128x1024_S1024x1024_S128x1024_1_1_0_0_n_n.rhsIdx j c 1).val = (c ⟨0, by decide⟩).val :=
  dot_S128x1024_S1024x1024_S128x1024_1_1_0_0_n_n.rhsIdx_val_of_single rfl j c

/-- Rows against rows, 1024 terms: entry `(p, q)` is `Σ_k lhs (p, k) · rhs (q, k)`. -/
theorem product_rows_apply (lhs : FVec Ideal S128x1024 .bf16) (rhs : FVec Ideal S1024x1024 .bf16) (p : Fin 128) (q : Fin 1024) :
    FloatOps.matmul dot_S128x1024_S1024x1024_S128x1024_1_1_0_0_n_n none lhs rhs (constant (F := Ideal) S128x1024 .f32 0x00000000#32) (ix2 p q)
      = ∑ k : Fin 1024, lhs (ix2 p k) * rhs (ix2 q k) := by
  refine (Ideal.matmul_constant_zero_apply dot_S128x1024_S1024x1024_S128x1024_1_1_0_0_n_n none lhs rhs (ix2 p q)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 p q) ((contrEquiv1 dot_S128x1024_S1024x1024_S128x1024_1_1_0_0_n_n 1024 rfl rfl).symm k) = ix2 p k :=
    funext fun a => Fin.ext (by
      match a with
      | ⟨0, _⟩ => exact product_rows_apply_lhs0 _ _
      | ⟨1, _⟩ => exact (product_rows_apply_lhs1 _ _).trans hk)
  have er : dot_S128x1024_S1024x1024_S128x1024_1_1_0_0_n_n.rhsIdx (ix2 p q) ((contrEquiv1 dot_S128x1024_S1024x1024_S128x1024_1_1_0_0_n_n 1024 rfl rfl).symm k) = ix2 q k :=
    funext fun a => Fin.ext (by
      match a with
      | ⟨0, _⟩ => exact product_rows_apply_rhsN _ _
      | ⟨1, _⟩ => exact (product_rows_apply_rhsC _ _).trans hk)
  rw [el, er]

private theorem product_cols_apply_lhs0 (j : S128x1024.Idx) (c : dot_S128x1024_S1024x1024_S128x1024_1_0_0_1_n_n.contr.Idx) :
    (dot_S128x1024_S1024x1024_S128x1024_1_0_0_1_n_n.lhsIdx j c 0).val = (j 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

private theorem product_cols_apply_lhs1 (j : S128x1024.Idx) (c : dot_S128x1024_S1024x1024_S128x1024_1_0_0_1_n_n.contr.Idx) :
    (dot_S128x1024_S1024x1024_S128x1024_1_0_0_1_n_n.lhsIdx j c 1).val = (c ⟨0, by decide⟩).val :=
  dot_S128x1024_S1024x1024_S128x1024_1_0_0_1_n_n.lhsIdx_val_of_single rfl j c

private theorem product_cols_apply_rhsN (j : S128x1024.Idx) (c : dot_S128x1024_S1024x1024_S128x1024_1_0_0_1_n_n.contr.Idx) :
    (dot_S128x1024_S1024x1024_S128x1024_1_0_0_1_n_n.rhsIdx j c 1).val = (j 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

private theorem product_cols_apply_rhsC (j : S128x1024.Idx) (c : dot_S128x1024_S1024x1024_S128x1024_1_0_0_1_n_n.contr.Idx) :
    (dot_S128x1024_S1024x1024_S128x1024_1_0_0_1_n_n.rhsIdx j c 0).val = (c ⟨0, by decide⟩).val :=
  dot_S128x1024_S1024x1024_S128x1024_1_0_0_1_n_n.rhsIdx_val_of_single rfl j c

/-- Rows against columns, 1024 terms: entry `(p, q)` is `Σ_k lhs (p, k) · rhs (k, q)`. -/
theorem product_cols_apply (lhs : FVec Ideal S128x1024 .bf16) (rhs : FVec Ideal S1024x1024 .bf16) (p : Fin 128) (q : Fin 1024) :
    FloatOps.matmul dot_S128x1024_S1024x1024_S128x1024_1_0_0_1_n_n none lhs rhs (constant (F := Ideal) S128x1024 .f32 0x00000000#32) (ix2 p q)
      = ∑ k : Fin 1024, lhs (ix2 p k) * rhs (ix2 k q) := by
  refine (Ideal.matmul_constant_zero_apply dot_S128x1024_S1024x1024_S128x1024_1_0_0_1_n_n none lhs rhs (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k :=
    funext fun a => Fin.ext (by
      match a with
      | ⟨0, _⟩ => exact product_cols_apply_lhs0 _ _
      | ⟨1, _⟩ => exact (product_cols_apply_lhs1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q :=
    funext fun a => Fin.ext (by
      match a with
      | ⟨1, _⟩ => exact product_cols_apply_rhsN _ _
      | ⟨0, _⟩ => exact (product_cols_apply_rhsC _ _).trans hk)
  rw [el, er]

private theorem product_wide_apply_lhs0 (j : S128x1024.Idx) (c : dot_S128x2048_S1024x2048_S128x1024_1_1_0_0_n_n.contr.Idx) :
    (dot_S128x2048_S1024x2048_S128x1024_1_1_0_0_n_n.lhsIdx j c 0).val = (j 0).val := by
  unfold DotDims.lhsIdx
  rw [dif_neg (show ¬(0 : Fin S128x2048.rank) ∈ dot_S128x2048_S1024x2048_S128x1024_1_1_0_0_n_n.lhsBatch by decide),
    dif_pos (show (0 : Fin S128x2048.rank) ∈ dot_S128x2048_S1024x2048_S128x1024_1_1_0_0_n_n.lhsNonContracting by decide)]
  rfl

private theorem product_wide_apply_lhs1 (j : S128x1024.Idx) (c : dot_S128x2048_S1024x2048_S128x1024_1_1_0_0_n_n.contr.Idx) :
    (dot_S128x2048_S1024x2048_S128x1024_1_1_0_0_n_n.lhsIdx j c 1).val = (c ⟨0, by decide⟩).val :=
  dot_S128x2048_S1024x2048_S128x1024_1_1_0_0_n_n.lhsIdx_val_of_single rfl j c

private theorem product_wide_apply_rhsN (j : S128x1024.Idx) (c : dot_S128x2048_S1024x2048_S128x1024_1_1_0_0_n_n.contr.Idx) :
    (dot_S128x2048_S1024x2048_S128x1024_1_1_0_0_n_n.rhsIdx j c 0).val = (j 1).val := by
  unfold DotDims.rhsIdx
  rw [dif_neg (show ¬(0 : Fin S1024x2048.rank) ∈ dot_S128x2048_S1024x2048_S128x1024_1_1_0_0_n_n.rhsBatch by decide),
    dif_pos (show (0 : Fin S1024x2048.rank) ∈ dot_S128x2048_S1024x2048_S128x1024_1_1_0_0_n_n.rhsNonContracting by decide)]
  rfl

private theorem product_wide_apply_rhsC (j : S128x1024.Idx) (c : dot_S128x2048_S1024x2048_S128x1024_1_1_0_0_n_n.contr.Idx) :
    (dot_S128x2048_S1024x2048_S128x1024_1_1_0_0_n_n.rhsIdx j c 1).val = (c ⟨0, by decide⟩).val :=
  dot_S128x2048_S1024x2048_S128x1024_1_1_0_0_n_n.rhsIdx_val_of_single rfl j c

/-- Rows against rows, 2048 terms: entry `(p, q)` is `Σ_k lhs (p, k) · rhs (q, k)`. -/
theorem product_wide_apply (lhs : FVec Ideal S128x2048 .bf16) (rhs : FVec Ideal S1024x2048 .bf16) (p : Fin 128) (q : Fin 1024) :
    FloatOps.matmul dot_S128x2048_S1024x2048_S128x1024_1_1_0_0_n_n none lhs rhs (constant (F := Ideal) S128x1024 .f32 0x00000000#32) (ix2 p q)
      = ∑ k : Fin 2048, lhs (ix2 p k) * rhs (ix2 q k) := by
  refine (Ideal.matmul_constant_zero_apply dot_S128x2048_S1024x2048_S128x1024_1_1_0_0_n_n none lhs rhs (ix2 p q)).trans ?_
  rw [← Equiv.sum_comp (contrEquiv1 dot_S128x2048_S1024x2048_S128x1024_1_1_0_0_n_n 2048 rfl rfl).symm]
  refine Finset.sum_congr rfl fun k _ => ?_
  have hk := contrEquiv1_symm_val dot_S128x2048_S1024x2048_S128x1024_1_1_0_0_n_n 2048 rfl rfl k
  have el : dot_S128x2048_S1024x2048_S128x1024_1_1_0_0_n_n.lhsIdx (ix2 p q) ((contrEquiv1 dot_S128x2048_S1024x2048_S128x1024_1_1_0_0_n_n 2048 rfl rfl).symm k) = ix2 p k :=
    funext fun a => Fin.ext (by
      match a with
      | ⟨0, _⟩ => exact product_wide_apply_lhs0 _ _
      | ⟨1, _⟩ => exact (product_wide_apply_lhs1 _ _).trans hk)
  have er : dot_S128x2048_S1024x2048_S128x1024_1_1_0_0_n_n.rhsIdx (ix2 p q) ((contrEquiv1 dot_S128x2048_S1024x2048_S128x1024_1_1_0_0_n_n 2048 rfl rfl).symm k) = ix2 q k :=
    funext fun a => Fin.ext (by
      match a with
      | ⟨0, _⟩ => exact product_wide_apply_rhsN _ _
      | ⟨1, _⟩ => exact (product_wide_apply_rhsC _ _).trans hk)
  rw [el, er]

end Cert.Attn.Body

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.BodyRowReduce.lean ====
/-
  The two row reductions of the softmax block, kept as columns and spread back along the rows.

  A reduction over the second axis of a [128, 1024] block gives a vector [128]; the program views it as a column
  [128, 1] and broadcasts the column to [128, 1024]. Read at `(p, c)` the result is the reduction of row `p`: for the
  maximum, the fold of `max` over the row from the accumulator's value; for the sum, the sum of the row.
-/
import proofs.«181945_j1580547975047_1_alg».proof.Proof.Gen.KernelIdeal.Skeleton
import proofs.«181945_j1580547975047_1_alg».proof.Proof.LibKeepDims
import Idealize.ShloMosaic.Lib.ValueIdx
import Idealize.ShloMosaic.PureOps.Ideal.Laws

noncomputable section

open scoped BigOperators
open Idealize.ShloMosaic Idealize.ShloMosaic.ValueIdx Idealize.ShloMosaic.TcCoe

namespace Cert.Attn.Body

open Cert.KernelIdeal Cert.KernelIdeal.Gen Cert.Attn

/-- The index a reduction over the second axis inserts: row `p`, position `k`. -/
theorem lift_row (h : S128x1024.Reduces [1] S128) (p : Fin 128) (k : Fin 1024) :
    h.lift (ix1 p) k = ix2 p k :=
  funext fun a => Fin.ext (by
    match a with
    | ⟨0, _⟩ => rfl
    | ⟨1, _⟩ => rfl)

/-- The row maximum at `p`: the fold of `max` over row `p` from the accumulator's value. -/
theorem row_max_apply (src : FVec Ideal S128x1024 .f32) (h : S128x1024.Reduces [1] S128)
    (hφ : FKind.Formats FTy.f32) (hacc : (0xFF800000#32 : BitVec 32) = 0xFF800000#32) (p : Fin 128) :
    multiReduction (F := Ideal) .maximumf [1] S128 src 0xFF800000#32 h hφ hacc (ix1 p)
      = (Finset.univ : Finset (Fin 1024)).fold max (Ideal.ofBits .f32 0xFF800000#32) (fun k => src (ix2 p k)) := by
  refine (Ideal.multiReduction_maximumf_single src 0xFF800000#32 h hφ hacc (ix1 p)).trans ?_
  refine congrArg (Finset.fold max (Ideal.ofBits .f32 0xFF800000#32) · Finset.univ) ?_
  exact funext fun k => congrArg src (lift_row h p k)

/-- The row sum at `p`: the sum of row `p`. -/
theorem row_sum_apply (src : FVec Ideal S128x1024 .f32) (h : S128x1024.Reduces [1] S128)
    (hφ : FKind.Formats FTy.f32) (hacc : (0x00000000#32 : BitVec 32) = 0x00000000#32) (p : Fin 128) :
    multiReduction (F := Ideal) .add [1] S128 src 0x00000000#32 h hφ hacc (ix1 p)
      = ∑ k : Fin 1024, src (ix2 p k) := by
  refine (Ideal.multiReduction_add_single src 0x00000000#32 h hφ hacc (ix1 p)).trans ?_
  exact Finset.sum_congr rfl fun k _ => congrArg src (lift_row h p k)

/-- A vector [128] kept as a column and spread along the rows reads, at `(p, c)`, the vector at `p`. -/
theorem keep_row_apply (v : FVec Ideal S128 .f32) (hc : S128.ShapeCasts S128x1) (hb : S128x1.Broadcasts S128x1024)
    (p : Fin 128) (c : Fin 1024) :
    broadcastTo S128x1024 (shapeCast S128x1 v hc) hb (ix2 p c) = v (ix1 p) :=
  (Cert.Lib.KeepDims.broadcastTo_a1_ab_apply _ hb p c).trans (Cert.Lib.KeepDims.shapeCast_a_a1_apply v hc p 0)

end Cert.Attn.Body

end
-- ==== Proof.BodySoftmax.lean ====
/-
  The softmax block of the program, read at one entry, is the attention weight of one row.

  The block is built in five steps, each a [128, 1024] array whose row `p` depends on row `p` of the input alone: the
  projected rows (the input block against the input weights), the scores (the projected rows against the context), the
  scores' row maximum spread along the rows, the exponentials of the scores' distances below it, and their row sums
  spread along the rows; the block is the quotient of the last two. A narrowing of the format between the steps is the
  identity on extended reals. Each step read at `(p, ·)` is the corresponding function of the specification at row `p`.
-/
import proofs.«181945_j1580547975047_1_alg».proof.Proof.Spec
import proofs.«181945_j1580547975047_1_alg».proof.Proof.BodyProducts
import proofs.«181945_j1580547975047_1_alg».proof.Proof.BodyRowReduce
import Idealize.ShloMosaic.Lib.ValueLayout

noncomputable section

open scoped BigOperators
open Idealize.ShloMosaic Idealize.ShloMosaic.ValueIdx Idealize.ShloMosaic.TcCoe

namespace Cert.Attn.Body

open Cert.KernelIdeal Cert.KernelIdeal.Gen Cert.Attn

/-- The exponential of an array at an index is the exponential of the entry. -/
theorem exp_entry {s : Shape} {φ : FTy} (a : FVec Ideal s φ) (i : s.Idx) : exp a i = Ideal.exp (a i) := rfl

/-- The hyperbolic tangent of an array at an index is the hyperbolic tangent of the entry. -/
theorem tanh_entry {s : Shape} {φ : FTy} (a : FVec Ideal s φ) (i : s.Idx) : tanh a i = Ideal.tanh (a i) := rfl

/-- A narrowing of the format is the identity on extended reals. -/
theorem narrow_entry {s : Shape} (a : FVec Ideal s .f32) (i : s.Idx) :
    (truncf .bf16 a bitsLt_bf16_f32 : FVec Ideal s .bf16) i = a i := rfl

section Blocks

variable (v0 : Vec Ideal S1x128x1024 .f32) (v3 : Vec Ideal S1024x1024 .bf16) (v5 : Vec Ideal S1x1024x1024 .bf16)

/-- The input block without its leading unit axis: entry `(p, d)` is the input at `(0, p, d)`. -/
theorem input_rows_apply (p : Fin 128) (d : Fin 1024) :
    k0_pay2 (F := Ideal) v0 (ix2 p d) = v0 (ix3 (0 : Fin 1) p d) :=
  shapeCast_1ab_ab_apply v0 _ p d

/-- The context without its leading unit axis: entry `(s, d)` is the context at `(0, s, d)`. -/
theorem context_apply (s : Fin 1024) (d : Fin 1024) :
    k0_pay3 (F := Ideal) v5 (ix2 s d) = v5 (ix3 (0 : Fin 1) s d) :=
  shapeCast_1ab_ab_apply v5 _ s d

/-- The projected rows: the input block against the input weights. -/
def queryBlock : FVec Ideal S128x1024 .f32 :=
  matmul dot_S128x1024_S1024x1024_S128x1024_1_1_0_0_n_n none (truncf .bf16 (k0_pay2 v0) bitsLt_bf16_f32)
    (shapeCast S1024x1024 v3 shapeCasts_S1024x1024_S1024x1024 : FVec Ideal S1024x1024 .bf16)
    (constant S128x1024 .f32 0x00000000#32)

/-- The scores: the projected rows against the context. -/
def scoreBlock : FVec Ideal S128x1024 .f32 :=
  matmul dot_S128x1024_S1024x1024_S128x1024_1_1_0_0_n_n none (truncf .bf16 (queryBlock v0 v3) bitsLt_bf16_f32)
    (k0_pay3 v5) (constant S128x1024 .f32 0x00000000#32)

/-- The scores' row maximum, spread along the rows. -/
def topBlock : FVec Ideal S128x1024 .f32 :=
  broadcastTo S128x1024
    (shapeCast S128x1
      (multiReduction .maximumf [1] S128 (scoreBlock v0 v3 v5) 0xFF800000#32 reduces_S128x1024_S128 (.inl rfl) rfl)
      shapeCasts_S128_S128x1)
    broadcasts_S128x1_S128x1024

/-- The exponentials of the scores' distances below the row maximum. -/
def expoBlock : FVec Ideal S128x1024 .f32 := exp (subf (scoreBlock v0 v3 v5) (topBlock v0 v3 v5))

/-- The exponentials' row sum, spread along the rows. -/
def massBlock : FVec Ideal S128x1024 .f32 :=
  broadcastTo S128x1024
    (shapeCast S128x1
      (multiReduction .add [1] S128 (expoBlock v0 v3 v5) 0x00000000#32 reduces_S128x1024_S128 (.inl rfl) rfl)
      shapeCasts_S128_S128x1)
    broadcasts_S128x1_S128x1024

/-- The softmax block is the quotient of the exponentials by their row sums. -/
theorem softmax_block_eq : k0_pay4 (F := Ideal) v0 v3 v5 = divf (expoBlock v0 v3 v5) (massBlock v0 v3 v5) := rfl

variable (p : Fin 128)

/-- Row `p` of the projected rows is the specification's `query` of input row `p`. -/
theorem query_block_apply (e : Fin 1024) :
    queryBlock v0 v3 (ix2 p e) = query (fun d => v0 (ix3 (0 : Fin 1) p d)) (fun e d => v3 (ix2 e d)) e := by
  refine (product_rows_apply _ _ p e).trans ?_
  unfold query
  refine Finset.sum_congr rfl fun k _ => ?_
  exact congrArg₂ (· * ·) ((narrow_entry _ _).trans (input_rows_apply v0 p k))
    (congrFun (shapeCast_self v3 _) (ix2 e k))

/-- Row `p` of the scores is the specification's `score` of input row `p`. -/
theorem score_block_apply (s : Fin 1024) :
    scoreBlock v0 v3 v5 (ix2 p s) = score (fun d => v0 (ix3 (0 : Fin 1) p d)) (fun e d => v3 (ix2 e d)) (fun s' d => v5 (ix3 (0 : Fin 1) s' d)) s := by
  refine (product_rows_apply _ _ p s).trans ?_
  unfold score
  refine Finset.sum_congr rfl fun k _ => ?_
  exact congrArg₂ (· * ·) ((narrow_entry _ _).trans (query_block_apply v0 v3 p k)) (context_apply v5 s k)

/-- Every entry of row `p` of the spread maximum is the specification's `top` of input row `p`. -/
theorem top_block_apply (c : Fin 1024) :
    topBlock v0 v3 v5 (ix2 p c) = top (fun d => v0 (ix3 (0 : Fin 1) p d)) (fun e d => v3 (ix2 e d)) (fun s' d => v5 (ix3 (0 : Fin 1) s' d)) := by
  refine (keep_row_apply _ _ _ p c).trans ?_
  refine (row_max_apply _ _ _ _ p).trans ?_
  unfold top
  exact congrArg (Finset.fold max (Ideal.ofBits .f32 0xFF800000#32) · Finset.univ)
    (funext fun k => score_block_apply v0 v3 v5 p k)

/-- Row `p` of the exponentials is the specification's `expo` of input row `p`. -/
theorem expo_block_apply (s : Fin 1024) :
    expoBlock v0 v3 v5 (ix2 p s) = expo (fun d => v0 (ix3 (0 : Fin 1) p d)) (fun e d => v3 (ix2 e d)) (fun s' d => v5 (ix3 (0 : Fin 1) s' d)) s := by
  refine (exp_entry _ _).trans ?_
  unfold expo
  refine congrArg Ideal.exp ((subf_apply _ _ _).trans ?_)
  exact congrArg₂ (· - ·) (score_block_apply v0 v3 v5 p s) (top_block_apply v0 v3 v5 p s)

/-- Every entry of row `p` of the spread sum is the specification's `mass` of input row `p`. -/
theorem mass_block_apply (c : Fin 1024) :
    massBlock v0 v3 v5 (ix2 p c) = mass (fun d => v0 (ix3 (0 : Fin 1) p d)) (fun e d => v3 (ix2 e d)) (fun s' d => v5 (ix3 (0 : Fin 1) s' d)) := by
  refine (keep_row_apply _ _ _ p c).trans ?_
  refine (row_sum_apply _ _ _ _ p).trans ?_
  unfold mass
  exact Finset.sum_congr rfl fun k _ => expo_block_apply v0 v3 v5 p k

/-- Row `p` of the softmax block is the specification's `weight` of input row `p`. -/
theorem softmax_block_apply (s : Fin 1024) :
    k0_pay4 (F := Ideal) v0 v3 v5 (ix2 p s) = weight (fun d => v0 (ix3 (0 : Fin 1) p d)) (fun e d => v3 (ix2 e d)) (fun s' d => v5 (ix3 (0 : Fin 1) s' d)) s := by
  refine (congrFun (softmax_block_eq v0 v3 v5) (ix2 p s)).trans ?_
  refine (divf_apply _ _ _).trans ?_
  unfold weight
  exact congrArg₂ Ideal.div (expo_block_apply v0 v3 v5 p s) (mass_block_apply v0 v3 v5 p s)

end Blocks

end Cert.Attn.Body

end
-- ==== Proof.BodyRow.lean ====
/-
  The three arrays the program stores for one block of rows, read at one entry, are the specification of one row.

  After the softmax block the program blends the context by the weights (a product contracting the weights' second axis
  with the context's first), places the input block to the right of the blend, and takes the hyperbolic tangent of the
  joined block against the output weights. The three stored arrays are the softmax block, the joined block and that
  last block, each with a leading unit axis put back. Read at `(0, p, ·)` they are `weight`, `joined` and `out` of input
  row `p`.
-/
import proofs.«181945_j1580547975047_1_alg».proof.Proof.Spec
import proofs.«181945_j1580547975047_1_alg».proof.Proof.BodySoftmax
import Idealize.ShloMosaic.Lib.Pipeline.Value
import Idealize.ShloMosaic.Lib.ValueLayout

noncomputable section

open scoped BigOperators
open Idealize.ShloMosaic Idealize.ShloMosaic.ValueIdx Idealize.ShloMosaic.TcCoe

namespace Cert.Attn.Body

open Cert.KernelIdeal Cert.KernelIdeal.Gen Cert.Attn

section Blocks

variable (v0 : Vec Ideal S1x128x1024 .f32) (v3 : Vec Ideal S1024x1024 .bf16) (v5 : Vec Ideal S1x1024x1024 .bf16)

/-- The context blended by the weights: the softmax block against the context's columns. -/
def blendBlock : FVec Ideal S128x1024 .f32 :=
  matmul dot_S128x1024_S1024x1024_S128x1024_1_0_0_1_n_n none (truncf .bf16 (k0_pay4 v0 v3 v5) bitsLt_bf16_f32)
    (k0_pay3 v5) (constant S128x1024 .f32 0x00000000#32)

/-- The joined block is the blend followed, along the second axis, by the input block. -/
theorem joined_block_eq :
    k0_pay6 (F := Ideal) v0 v3 v5
      = concatenate S128x2048 1 [⟨S128x1024, blendBlock v0 v3 v5⟩, ⟨S128x1024, k0_pay2 v0⟩]
          concatenates_S128x1024_S128x1024_S128x2048_d1 := rfl

variable (p : Fin 128)

/-- Row `p` of the blend is the specification's `blend` of input row `p`. -/
theorem blend_block_apply (d : Fin 1024) :
    blendBlock v0 v3 v5 (ix2 p d) = blend (fun d => v0 (ix3 (0 : Fin 1) p d)) (fun e d => v3 (ix2 e d)) (fun s' d => v5 (ix3 (0 : Fin 1) s' d)) d := by
  refine (product_cols_apply _ _ p d).trans ?_
  unfold blend
  refine Finset.sum_congr rfl fun k _ => ?_
  exact congrArg₂ (· * ·) ((narrow_entry _ _).trans (softmax_block_apply v0 v3 v5 p k)) (context_apply v5 k d)

/-- Row `p` of the joined block is the specification's `joined` of input row `p`: the blend on the first 1024
    positions, the input row on the last 1024. -/
theorem joined_rows_apply (f : Fin 2048) :
    k0_pay6 (F := Ideal) v0 v3 v5 (ix2 p f) = joined (fun d => v0 (ix3 (0 : Fin 1) p d)) (fun e d => v3 (ix2 e d)) (fun s' d => v5 (ix3 (0 : Fin 1) s' d)) f := by
  refine (congrFun (joined_block_eq v0 v3 v5) (ix2 p f)).trans ?_
  unfold joined
  by_cases h : f.val < 1024
  · rw [dif_pos h]
    refine (concatenate_pair_apply_left (t := S128x2048) (s₁ := S128x1024) (s₂ := S128x1024) (1 : Fin 2) _ _ _ (ix2 p f) rfl (ix2 p (⟨f.val, h⟩ : Fin 1024)) ?_).trans
      (blend_block_apply v0 v3 v5 p ⟨f.val, h⟩)
    intro b
    match b with
    | ⟨0, _⟩ => rfl
    | ⟨1, _⟩ => rfl
  · rw [dif_neg h]
    refine (concatenate_pair_apply_right (t := S128x2048) (s₁ := S128x1024) (s₂ := S128x1024) (1 : Fin 2) _ _ _ (ix2 p f) rfl rfl
      (ix2 p (⟨f.val - 1024, by omega⟩ : Fin 1024)) ?_ ?_).trans (input_rows_apply v0 p ⟨f.val - 1024, by omega⟩)
    · intro b hb
      match b with
      | ⟨0, _⟩ => rfl
      | ⟨1, _⟩ => exact absurd rfl hb
    · show f.val - 1024 + 1024 = f.val
      omega

variable (v7 : Vec Ideal S1024x2048 .bf16)

/-- The output block is the hyperbolic tangent of the joined block against the output weights. -/
theorem out_block_eq :
    k0_pay8 (F := Ideal) v0 v3 v5 v7
      = tanh (matmul dot_S128x2048_S1024x2048_S128x1024_1_1_0_0_n_n none
          (truncf .bf16 (k0_pay6 v0 v3 v5) bitsLt_bf16_f32)
          (shapeCast S1024x2048 v7 shapeCasts_S1024x2048_S1024x2048 : FVec Ideal S1024x2048 .bf16)
          (constant S128x1024 .f32 0x00000000#32)) := rfl

/-- Row `p` of the output block is the specification's `out` of input row `p`. -/
theorem out_rows_apply (d : Fin 1024) :
    k0_pay8 (F := Ideal) v0 v3 v5 v7 (ix2 p d)
      = out (fun d => v0 (ix3 (0 : Fin 1) p d)) (fun e d => v3 (ix2 e d)) (fun s' d => v5 (ix3 (0 : Fin 1) s' d))
          (fun e f => v7 (ix2 e f)) d := by
  refine (congrFun (out_block_eq v0 v3 v5 v7) (ix2 p d)).trans ?_
  refine (tanh_entry _ _).trans ?_
  unfold out
  refine congrArg Ideal.tanh ((product_wide_apply _ _ p d).trans ?_)
  refine Finset.sum_congr rfl fun k _ => ?_
  exact congrArg₂ (· * ·) ((narrow_entry _ _).trans (joined_rows_apply v0 v3 v5 p k))
    (congrFun (shapeCast_self v7 _) (ix2 d k))

end Blocks

/-- The stored weights: the softmax block under a leading unit axis, at `(0, p, s)`. -/
theorem weight_block (v0 : Vec Ideal S1x128x1024 .f32) (v3 : Vec Ideal S1024x1024 .bf16) (v5 : Vec Ideal S1x1024x1024 .bf16)
    (p : Fin 128) (s : Fin 1024) :
    k0_pay5 (F := Ideal) v0 v3 v5 (ix3 (0 : Fin 1) p s)
      = weight (fun d => v0 (ix3 (0 : Fin 1) p d)) (fun e d => v3 (ix2 e d)) (fun s' d => v5 (ix3 (0 : Fin 1) s' d)) s :=
  (shapeCast_ab_1ab_apply (k0_pay4 (F := Ideal) v0 v3 v5) shapeCasts_S128x1024_S1x128x1024 0 p s).trans
    (softmax_block_apply v0 v3 v5 p s)

/-- The stored joined rows: the joined block under a leading unit axis, at `(0, p, f)`. -/
theorem joined_block (v0 : Vec Ideal S1x128x1024 .f32) (v3 : Vec Ideal S1024x1024 .bf16) (v5 : Vec Ideal S1x1024x1024 .bf16)
    (p : Fin 128) (f : Fin 2048) :
    k0_pay7 (F := Ideal) v0 v3 v5 (ix3 (0 : Fin 1) p f)
      = joined (fun d => v0 (ix3 (0 : Fin 1) p d)) (fun e d => v3 (ix2 e d)) (fun s' d => v5 (ix3 (0 : Fin 1) s' d)) f :=
  (shapeCast_ab_1ab_apply (k0_pay6 (F := Ideal) v0 v3 v5) shapeCasts_S128x2048_S1x128x2048 0 p f).trans
    (joined_rows_apply v0 v3 v5 p f)

/-- The stored output rows: the output block under a leading unit axis, at `(0, p, d)`. -/
theorem out_block (v0 : Vec Ideal S1x128x1024 .f32) (v3 : Vec Ideal S1024x1024 .bf16) (v5 : Vec Ideal S1x1024x1024 .bf16)
    (v7 : Vec Ideal S1024x2048 .bf16) (p : Fin 128) (d : Fin 1024) :
    k0_pay1 (F := Ideal) (k0_pay8 v0 v3 v5 v7) (ix3 (0 : Fin 1) p d)
      = out (fun d' => v0 (ix3 (0 : Fin 1) p d')) (fun e d' => v3 (ix2 e d')) (fun s' d' => v5 (ix3 (0 : Fin 1) s' d'))
          (fun e f => v7 (ix2 e f)) d :=
  (shapeCast_ab_1ab_apply (k0_pay8 (F := Ideal) v0 v3 v5 v7) shapeCasts_S128x1024_S1x128x1024 0 p d).trans
    (out_rows_apply v0 v3 v5 p v7 d)

end Cert.Attn.Body

end
-- ==== Proof.OutBlocks.lean ====
/-
  The three arrays the region leaves, as functions of the arrays it found.

  At grid point t the body stores, into each of its three output blocks, one value per row p of the point's 128 rows
  and per column: the attention weight, the joined entry, or the output entry of that row, computed from row p of the
  input block, the context block and the weight matrices. Row p of the input block at point t is row
  (t % 4) · 128 + p of batch entry t / 4, the context block is that batch entry's context, and the output block sits
  at the same batch entry and row tile; so what point t writes back is block t of ONE function of the whole arrays,
  the specified quantity of row (b, r) at index (b, r, ·). The 32 × 4 blocks tile each array — row (b, r) is in the
  block of point b · 4 + r / 128 — so after the region each array holds that function everywhere.
  The same argument is made three times, once per output array.
-/
import proofs.«181945_j1580547975047_1_alg».proof.Proof.BlockReads
import proofs.«181945_j1580547975047_1_alg».proof.Proof.BodyRow
import proofs.«181945_j1580547975047_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Attn.OutBlocks

open Cert.KernelIdeal Cert.KernelIdeal.Gen Cert.Attn Cert.Attn.Blocks

variable (m : (ℓ : Loc nD τ sig) → Buf (Elt Ideal) ℓ)

/-- The origin of a rank-3 block, as the constant function. -/
theorem hz3 : (![0, 0, 0] : Fin 3 → Nat) = fun _ => 0 := funext fun a => by fin_cases a <;> rfl
/-- The origin of a rank-2 block, as the constant function. -/
theorem hz2 : (![0, 0] : Fin 2 → Nat) = fun _ => 0 := funext fun a => by fin_cases a <;> rfl

/-- The attention weights of every row, batch entry first. -/
def wholeWeight (X : S32x512x1024.Idx → EReal) (C : S32x1024x1024.Idx → EReal) (Win : S1024x1024.Idx → EReal) :
    S32x512x1024.Idx → EReal :=
  fun i => weightAt X C Win ⟨(i 0).val, (i 0).isLt⟩ ⟨(i 1).val, (i 1).isLt⟩ ⟨(i 2).val, (i 2).isLt⟩

theorem wholeWeight_at (X : S32x512x1024.Idx → EReal) (C : S32x1024x1024.Idx → EReal) (Win : S1024x1024.Idx → EReal)
    (i : S32x512x1024.Idx) (b : Fin 32) (r : Fin 512) (s : Fin 1024)
    (h0 : (i 0).val = b.val) (h1 : (i 1).val = r.val) (h2 : (i 2).val = s.val) :
    wholeWeight X C Win i = weightAt X C Win b r s := by
  unfold wholeWeight
  exact congr (congr (congrArg (weightAt X C Win) (Fin.ext h0)) (Fin.ext h1)) (Fin.ext h2)

/-- What point t writes back to the weight array is block t of the whole-array function. -/
theorem flushed_weight (c : Dev nD) (t : Fin cfg0.N) :
    (dats m 0 c).flushed 5 t
      = ((cfg0.win 5).blk t).view.read (Elt Ideal) (wholeWeight (V m c main_arg0) (V m c main_v0) (V m c main_v1)) := by
  show (cfg0.win 5).cut (grid0.coords t) ((dats m 0 c).after 5 t) = _
  rw [after0_5]
  unfold out0_5
  rw [View.canon_unit_zero hz3]
  simp only [View.ld_unit_zero (S := S1x128x1024) hz3, View.ld_unit_zero (S := S1024x1024) hz2, View.ld_unit_zero (S := S1x1024x1024) hz3]
  funext y
  show k0_pay5 (F := Ideal) (iblk m c 0 t) (iblk m c 2 t) (iblk m c 1 t) y
      = wholeWeight (V m c main_arg0) (V m c main_v0) (V m c main_v1) (((cfg0.win 5).blk t).view.emb y)
  obtain ⟨u, p, s, rfl⟩ : ∃ (u : Fin 1) (p : Fin 128) (s : Fin 1024), y = ix3 u p s := ⟨y 0, y 1, y 2, eq_ix3 y⟩
  obtain rfl : u = 0 := Subsingleton.elim _ _
  refine (Body.weight_block (iblk m c 0 t) (iblk m c 2 t) (iblk m c 1 t) p s).trans ?_
  obtain ⟨-, -, -, -, -, -, -, -, -, -, -, -, -, e0, e1, e2, -⟩ := index_maps t
  have ht : t.val < 128 := Nat.lt_of_lt_of_eq t.isLt N_0
  have hb : t.val / 4 < 32 := by omega
  have hr : t.val % 4 * 128 + p.val < 512 := by omega
  refine Eq.trans ?_ (wholeWeight_at (V m c main_arg0) (V m c main_v0) (V m c main_v1) _ ⟨t.val / 4, hb⟩
    ⟨t.val % 4 * 128 + p.val, hr⟩ s ?_ ?_ ?_).symm
  · unfold weightAt
    rw [row_read m c t p ⟨t.val / 4, hb⟩ ⟨t.val % 4 * 128 + p.val, hr⟩ rfl rfl, win_read m c t,
      slab_read m c t ⟨t.val / 4, hb⟩ rfl]
  · show win0_5.index t (0 : Fin 3) * 1 + 1 * 0 = t.val / 4; omega
  · show win0_5.index t (1 : Fin 3) * 128 + 1 * p.val = t.val % 4 * 128 + p.val; omega
  · show win0_5.index t (2 : Fin 3) * 1024 + 1 * s.val = s.val; omega

/-- An index lies in point t's block of the weights array iff each coordinate lies in the block's range. -/
theorem mem_blk_weight (t : Fin cfg0.N) (i : S32x512x1024.Idx) :
    i ∈ ((cfg0.win 5).blk t).view.set ↔ ∀ a : Fin 3, win0_5.index t a * S1x128x1024.size a ≤ (i a).val
      ∧ (i a).val < win0_5.index t a * S1x128x1024.size a + S1x128x1024.size a := by
  show i ∈ ((View.whole main_v3_1).slice (win0_5.rect t)).set ↔ _
  rw [View.set_slice_whole, Rect.mem_set_unit]
  exact Iff.rfl

/-- Every row of the weights array is in the block of the point at its batch entry and row tile. -/
theorem cover_weight (i : S32x512x1024.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 1024 := (i 2).isLt
  have hN : (i 0).val * 4 + (i 1).val / 128 < cfg0.N := Nat.lt_of_lt_of_eq (by omega : (i 0).val * 4 + (i 1).val / 128 < 128) N_0.symm
  refine ⟨⟨(i 0).val * 4 + (i 1).val / 128, hN⟩, flush0_5 _, ?_⟩
  rw [mem_blk_weight]
  obtain ⟨-, -, -, -, -, -, -, -, -, -, -, -, -, e0, e1, e2, -⟩ := index_maps ⟨(i 0).val * 4 + (i 1).val / 128, hN⟩
  have e0' : win0_5.index ⟨(i 0).val * 4 + (i 1).val / 128, hN⟩ (0 : Fin 3) = ((i 0).val * 4 + (i 1).val / 128) / 4 := e0
  have e1' : win0_5.index ⟨(i 0).val * 4 + (i 1).val / 128, hN⟩ (1 : Fin 3) = ((i 0).val * 4 + (i 1).val / 128) % 4 := e1
  intro a
  match a with
  | ⟨0, _⟩ =>
    show win0_5.index ⟨(i 0).val * 4 + (i 1).val / 128, hN⟩ (0 : Fin 3) * 1 ≤ (i 0).val
      ∧ (i 0).val < win0_5.index ⟨(i 0).val * 4 + (i 1).val / 128, hN⟩ (0 : Fin 3) * 1 + 1
    omega
  | ⟨1, _⟩ =>
    show win0_5.index ⟨(i 0).val * 4 + (i 1).val / 128, hN⟩ (1 : Fin 3) * 128 ≤ (i 1).val
      ∧ (i 1).val < win0_5.index ⟨(i 0).val * 4 + (i 1).val / 128, hN⟩ (1 : Fin 3) * 128 + 128
    omega
  | ⟨2, _⟩ =>
    show win0_5.index ⟨(i 0).val * 4 + (i 1).val / 128, hN⟩ (2 : Fin 3) * 1024 ≤ (i 2).val
      ∧ (i 2).val < win0_5.index ⟨(i 0).val * 4 + (i 1).val / 128, hN⟩ (2 : Fin 3) * 1024 + 1024
    omega

/-- The weights array after the region. -/
theorem final_weight (c : Dev nD) :
    (dats m 0 c).arrAt 5 cfg0.N = wholeWeight (V m c main_arg0) (V m c main_v0) (V m c main_v1) :=
  (dats m 0 c).arrAt_eq_of_cover 5 _ (fun t _ => flushed_weight m c t) cover_weight

/-- The joined row of every row, batch entry first. -/
def wholeJoined (X : S32x512x1024.Idx → EReal) (C : S32x1024x1024.Idx → EReal) (Win : S1024x1024.Idx → EReal) :
    S32x512x2048.Idx → EReal :=
  fun i => joinedAt X C Win ⟨(i 0).val, (i 0).isLt⟩ ⟨(i 1).val, (i 1).isLt⟩ ⟨(i 2).val, (i 2).isLt⟩

theorem wholeJoined_at (X : S32x512x1024.Idx → EReal) (C : S32x1024x1024.Idx → EReal) (Win : S1024x1024.Idx → EReal)
    (i : S32x512x2048.Idx) (b : Fin 32) (r : Fin 512) (s : Fin 2048)
    (h0 : (i 0).val = b.val) (h1 : (i 1).val = r.val) (h2 : (i 2).val = s.val) :
    wholeJoined X C Win i = joinedAt X C Win b r s := by
  unfold wholeJoined
  exact congr (congr (congrArg (joinedAt X C Win) (Fin.ext h0)) (Fin.ext h1)) (Fin.ext h2)

/-- What point t writes back to the joined array is block t of the whole-array function. -/
theorem flushed_joined (c : Dev nD) (t : Fin cfg0.N) :
    (dats m 0 c).flushed 6 t
      = ((cfg0.win 6).blk t).view.read (Elt Ideal) (wholeJoined (V m c main_arg0) (V m c main_v0) (V m c main_v1)) := by
  show (cfg0.win 6).cut (grid0.coords t) ((dats m 0 c).after 6 t) = _
  rw [after0_6]
  unfold out0_6
  rw [View.canon_unit_zero hz3]
  simp only [View.ld_unit_zero (S := S1x128x1024) hz3, View.ld_unit_zero (S := S1024x1024) hz2, View.ld_unit_zero (S := S1x1024x1024) hz3]
  funext y
  show k0_pay7 (F := Ideal) (iblk m c 0 t) (iblk m c 2 t) (iblk m c 1 t) y
      = wholeJoined (V m c main_arg0) (V m c main_v0) (V m c main_v1) (((cfg0.win 6).blk t).view.emb y)
  obtain ⟨u, p, s, rfl⟩ : ∃ (u : Fin 1) (p : Fin 128) (s : Fin 2048), y = ix3 u p s := ⟨y 0, y 1, y 2, eq_ix3 y⟩
  obtain rfl : u = 0 := Subsingleton.elim _ _
  refine (Body.joined_block (iblk m c 0 t) (iblk m c 2 t) (iblk m c 1 t) p s).trans ?_
  obtain ⟨-, -, -, -, -, -, -, -, -, -, -, -, -, -, -, -, e0, e1, e2⟩ := index_maps t
  have ht : t.val < 128 := Nat.lt_of_lt_of_eq t.isLt N_0
  have hb : t.val / 4 < 32 := by omega
  have hr : t.val % 4 * 128 + p.val < 512 := by omega
  refine Eq.trans ?_ (wholeJoined_at (V m c main_arg0) (V m c main_v0) (V m c main_v1) _ ⟨t.val / 4, hb⟩
    ⟨t.val % 4 * 128 + p.val, hr⟩ s ?_ ?_ ?_).symm
  · unfold joinedAt
    rw [row_read m c t p ⟨t.val / 4, hb⟩ ⟨t.val % 4 * 128 + p.val, hr⟩ rfl rfl, win_read m c t,
      slab_read m c t ⟨t.val / 4, hb⟩ rfl]
  · show win0_6.index t (0 : Fin 3) * 1 + 1 * 0 = t.val / 4; omega
  · show win0_6.index t (1 : Fin 3) * 128 + 1 * p.val = t.val % 4 * 128 + p.val; omega
  · show win0_6.index t (2 : Fin 3) * 2048 + 1 * s.val = s.val; omega

/-- An index lies in point t's block of the joined array iff each coordinate lies in the block's range. -/
theorem mem_blk_joined (t : Fin cfg0.N) (i : S32x512x2048.Idx) :
    i ∈ ((cfg0.win 6).blk t).view.set ↔ ∀ a : Fin 3, win0_6.index t a * S1x128x2048.size a ≤ (i a).val
      ∧ (i a).val < win0_6.index t a * S1x128x2048.size a + S1x128x2048.size a := by
  show i ∈ ((View.whole main_v3_2).slice (win0_6.rect t)).set ↔ _
  rw [View.set_slice_whole, Rect.mem_set_unit]
  exact Iff.rfl

/-- Every row of the joined array is in the block of the point at its batch entry and row tile. -/
theorem cover_joined (i : S32x512x2048.Idx) :
    ∃ t : Fin cfg0.N, (cfg0.win 6).flush t = true ∧ i ∈ ((cfg0.win 6).blk t).view.set := by
  have h0 : (i 0).val < 32 := (i 0).isLt
  have h1 : (i 1).val < 512 := (i 1).isLt
  have h2 : (i 2).val < 2048 := (i 2).isLt
  have hN : (i 0).val * 4 + (i 1).val / 128 < cfg0.N := Nat.lt_of_lt_of_eq (by omega : (i 0).val * 4 + (i 1).val / 128 < 128) N_0.symm
  refine ⟨⟨(i 0).val * 4 + (i 1).val / 128, hN⟩, flush0_6 _, ?_⟩
  rw [mem_blk_joined]
  obtain ⟨-, -, -, -, -, -, -, -, -, -, -, -, -, -, -, -, e0, e1, e2⟩ := index_maps ⟨(i 0).val * 4 + (i 1).val / 128, hN⟩
  have e0' : win0_6.index ⟨(i 0).val * 4 + (i 1).val / 128, hN⟩ (0 : Fin 3) = ((i 0).val * 4 + (i 1).val / 128) / 4 := e0
  have e1' : win0_6.index ⟨(i 0).val * 4 + (i 1).val / 128, hN⟩ (1 : Fin 3) = ((i 0).val * 4 + (i 1).val / 128) % 4 := e1
  intro a
  match a with
  | ⟨0, _⟩ =>
    show win0_6.index ⟨(i 0).val * 4 + (i 1).val / 128, hN⟩ (0 : Fin 3) * 1 ≤ (i 0).val
      ∧ (i 0).val < win0_6.index ⟨(i 0).val * 4 + (i 1).val / 128, hN⟩ (0 : Fin 3) * 1 + 1
    omega
  | ⟨1, _⟩ =>
    show win0_6.index ⟨(i 0).val * 4 + (i 1).val / 128, hN⟩ (1 : Fin 3) * 128 ≤ (i 1).val
      ∧ (i 1).val < win0_6.index ⟨(i 0).val * 4 + (i 1).val / 128, hN⟩ (1 : Fin 3) * 128 + 128
    omega
  | ⟨2, _⟩ =>
    show win0_6.index ⟨(i 0).val * 4 + (i 1).val / 128, hN⟩ (2 : Fin 3) * 2048 ≤ (i 2).val
      ∧ (i 2).val < win0_6.index ⟨(i 0).val * 4 + (i 1).val / 128, hN⟩ (2 : Fin 3) * 2048 + 2048
    omega

/-- The joined array after the region. -/
theorem final_joined (c : Dev nD) :
    (dats m 0 c).arrAt 6 cfg0.N = wholeJoined (V m c main_arg0) (V m c main_v0) (V m c main_v1) :=
  (dats m 0 c).arrAt_eq_of_cover 6 _ (fun t _ => flushed_joined m c t) cover_joined

/-- The output row of every row, batch entry first. -/
def wholeOut (X : S32x512x1024.Idx → EReal) (C : S32x1024x1024.Idx → EReal) (Win : S1024x1024.Idx → EReal) (Wout : S1024x2048.Idx → EReal) :
    S32x512x1024.Idx → EReal :=
  fun i => outAt X C Win Wout ⟨(i 0).val, (i 0).isLt⟩ ⟨(i 1).val, (i 1).isLt⟩ ⟨(i 2).val, (i 2).isLt⟩

theorem wholeOut_at (X : S32x512x1024.Idx → EReal) (C : S32x1024x1024.Idx → EReal) (Win : S1024x1024.Idx → EReal) (Wout : S1024x2048.Idx → EReal)
    (i : S32x512x1024.Idx) (b : Fin 32) (r : Fin 512) (s : Fin 1024)
    (h0 : (i 0).val = b.val) (h1 : (i 1).val = r.val) (h2 : (i 2).val = s.val) :
    wholeOut X C Win Wout i = outAt X C Win Wout b r s := by
  unfold wholeOut
  exact congr (congr (congrArg (outAt X C Win Wout) (Fin.ext h0)) (Fin.ext h1)) (Fin.ext h2)

/-- What point t writes back to the out array is block t of the whole-array function. -/
theorem flushed_out (c : Dev nD) (t : Fin cfg0.N) :
    (dats m 0 c).flushed 4 t
      = ((cfg0.win 4).blk t).view.read (Elt Ideal) (wholeOut (V m c main_arg0) (V m c main_v0) (V m c main_v1) (V m c main_v2)) := by
  show (cfg0.win 4).cut (grid0.coords t) ((dats m 0 c).after 4 t) = _
  rw [after0_4]
  unfold out0_4
  rw [View.canon_unit_zero hz3]
  simp only [View.ld_unit_zero (S := S1x128x1024) hz3, View.ld_unit_zero (S := S1024x1024) hz2, View.ld_unit_zero (S := S1x1024x1024) hz3, View.ld_unit_zero (S := S1024x2048) hz2]
  funext y
  show k0_pay1 (F := Ideal) (k0_pay8 (iblk m c 0 t) (iblk m c 2 t) (iblk m c 1 t) (iblk m c 3 t)) y
      = wholeOut (V m c main_arg0) (V m c main_v0) (V m c main_v1) (V m c main_v2) (((cfg0.win 4).blk t).view.emb y)
  obtain ⟨u, p, s, rfl⟩ : ∃ (u : Fin 1) (p : Fin 128) (s : Fin 1024), y = ix3 u p s := ⟨y 0, y 1, y 2, eq_ix3 y⟩
  obtain rfl : u = 0 := Subsingleton.elim _ _
  refine (Body.out_block (iblk m c 0 t) (iblk m c 2 t) (iblk m c 1 t) (iblk m c 3 t) p s).trans ?_
  obtain ⟨-, -, -, -, -, -, -, -, -, -, e0, e1, e2, -⟩ := index_maps t
  have ht : t.val < 128 := Nat.lt_of_lt_of_eq t.isLt N_0
  have hb : t.val / 4 < 32 := by omega
  have hr : t.val % 4 * 128 + p.val < 512 := by omega
  refine Eq.trans ?_ (wholeOut_at (V m c main_arg0) (V m c main_v0) (V m c main_v1) (V m c main_v2) _ ⟨t.val / 4, hb⟩
    ⟨t.val % 4 * 128 + p.val, hr⟩ s ?_ ?_ ?_).symm
  · unfold outAt
    rw [row_read m c t p ⟨t.val / 4, hb⟩ ⟨t.val % 4 * 128 + p.val, hr⟩ rfl rfl, win_read m c t,
      slab_read m c t ⟨t.val / 4, hb⟩ rfl, wout_read m c t]
  · show win0_4.index t (0 : Fin 3) * 1 + 1 * 0 = t.val / 4; omega
  · show win0_4.index t (1 : Fin 3) * 128 + 1 * p.val = t.val % 4 * 128 + p.val; omega
  · show win0_4.index t (2 : Fin 3) * 1024 + 1 * s.val = s.val; omega

/-- An index lies in point t's block of the output array iff each coordinate lies in the block's range. -/
theorem mem_blk_out (t : Fin cfg0.N) (i : S32x512x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v3_0).slice (win0_4.rect t)).set ↔ _
  rw [View.set_slice_whole, Rect.mem_set_unit]
  exact Iff.rfl

/-- Every row of the output array is in the block of the point at its batch entry and row tile. -/
theorem cover_out (i : S32x512x1024.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 1024 := (i 2).isLt
  have hN : (i 0).val * 4 + (i 1).val / 128 < cfg0.N := Nat.lt_of_lt_of_eq (by omega : (i 0).val * 4 + (i 1).val / 128 < 128) N_0.symm
  refine ⟨⟨(i 0).val * 4 + (i 1).val / 128, hN⟩, flush0_4 _, ?_⟩
  rw [mem_blk_out]
  obtain ⟨-, -, -, -, -, -, -, -, -, -, e0, e1, e2, -⟩ := index_maps ⟨(i 0).val * 4 + (i 1).val / 128, hN⟩
  have e0' : win0_4.index ⟨(i 0).val * 4 + (i 1).val / 128, hN⟩ (0 : Fin 3) = ((i 0).val * 4 + (i 1).val / 128) / 4 := e0
  have e1' : win0_4.index ⟨(i 0).val * 4 + (i 1).val / 128, hN⟩ (1 : Fin 3) = ((i 0).val * 4 + (i 1).val / 128) % 4 := e1
  intro a
  match a with
  | ⟨0, _⟩ =>
    show win0_4.index ⟨(i 0).val * 4 + (i 1).val / 128, hN⟩ (0 : Fin 3) * 1 ≤ (i 0).val
      ∧ (i 0).val < win0_4.index ⟨(i 0).val * 4 + (i 1).val / 128, hN⟩ (0 : Fin 3) * 1 + 1
    omega
  | ⟨1, _⟩ =>
    show win0_4.index ⟨(i 0).val * 4 + (i 1).val / 128, hN⟩ (1 : Fin 3) * 128 ≤ (i 1).val
      ∧ (i 1).val < win0_4.index ⟨(i 0).val * 4 + (i 1).val / 128, hN⟩ (1 : Fin 3) * 128 + 128
    omega
  | ⟨2, _⟩ =>
    show win0_4.index ⟨(i 0).val * 4 + (i 1).val / 128, hN⟩ (2 : Fin 3) * 1024 ≤ (i 2).val
      ∧ (i 2).val < win0_4.index ⟨(i 0).val * 4 + (i 1).val / 128, hN⟩ (2 : Fin 3) * 1024 + 1024
    omega

/-- The output array after the region. -/
theorem final_out (c : Dev nD) :
    (dats m 0 c).arrAt 4 cfg0.N = wholeOut (V m c main_arg0) (V m c main_v0) (V m c main_v1) (V m c main_v2) :=
  (dats m 0 c).arrAt_eq_of_cover 4 _ (fun t _ => flushed_out m c t) cover_out

end Cert.Attn.OutBlocks

end
-- ==== Proof.Entry.lean ====
/-
  What the kernel's region finds in the three arrays the host prepares for it.

  Before the region the program changes the float format of the context and of the two weight matrices. On the
  extended reals a change of format is the identity, so the region finds in each of those three arrays exactly the
  corresponding argument array.
-/
import proofs.«181945_j1580547975047_1_alg».proof.Proof.Gen.KernelIdeal.Frame
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.Attn.Entry

open Cert.KernelIdeal Cert.KernelIdeal.Gen

variable (m : (ℓ : Loc nD τ sig) → Buf (Elt Ideal) ℓ)

/-- The context as the region finds it is the context argument. -/
theorem found_ctx (c : Dev nD) :
    (V m c main_v0 : S32x1024x1024.Idx → EReal) = (m ((c : Thread nD τ).loc main_arg1) : S32x1024x1024.Idx → EReal) := by
  show StableHlo.after hostOps0 (fun b => m (c, b)) (Proc.devRef .tc main_v0) = _
  after_results
  rfl

/-- The input weights as the region finds them are the input-weight argument. -/
theorem found_win (c : Dev nD) :
    (V m c main_v1 : S1024x1024.Idx → EReal) = (m ((c : Thread nD τ).loc main_arg2) : S1024x1024.Idx → EReal) := by
  show StableHlo.after hostOps0 (fun b => m (c, b)) (Proc.devRef .tc main_v1) = _
  after_results
  rfl

/-- The output weights as the region finds them are the output-weight argument. -/
theorem found_wout (c : Dev nD) :
    (V m c main_v2 : S1024x2048.Idx → EReal) = (m ((c : Thread nD τ).loc main_arg3) : S1024x2048.Idx → EReal) := by
  show StableHlo.after hostOps0 (fun b => m (c, b)) (Proc.devRef .tc main_v2) = _
  after_results
  rfl

end Cert.Attn.Entry

end
-- ==== Proof.Tail.lean ====
/-
  The program's three results.

  After the region the program exchanges the first two axes of each of the three arrays the region left. The result at
  (t, b, ·) is therefore the region's array at (b, t, ·), which is the specified quantity of row (b, t); and the three
  arrays the region found prepared by the host are the argument arrays themselves. So each result is the specified
  result of the four argument arrays.
-/
import proofs.«181945_j1580547975047_1_alg».proof.Proof.OutBlocks
import proofs.«181945_j1580547975047_1_alg».proof.Proof.Entry
import proofs.«181945_j1580547975047_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.Attn.Tail

open Cert.KernelIdeal Cert.KernelIdeal.Gen Cert.Attn Cert.Attn.OutBlocks Cert.Attn.Entry

variable (m : (ℓ : Loc nD τ sig) → Buf (Elt Ideal) ℓ)

/-- The second result of the program: the weights array with its first two axes exchanged. -/
theorem result_weight (c : Dev nD) :
    (Pipeline.afterTail₀ cfgs (dats m) 0 (V0 m) [hostOps1] c main_v5 : S512x32x1024.Idx → EReal)
      = resWeight (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v3_1)
        = (dats m 0 c).arrAt 5 cfg0.N from Pipeline.withArrays_arr spec0 launch0.win.arr_inj c _ _ 5]
  rw [final_weight, V_main_arg0, found_ctx, found_win]
  funext j
  obtain ⟨t, b, s, rfl⟩ : ∃ (t : Fin 512) (b : Fin 32) (s : Fin 1024), j = ix3 t b s := ⟨j 0, j 1, j 2, eq_ix3 j⟩
  refine (transpose_apply _ _ _ (ix3 t b s) (ix3 b t s) (fun a => ?_)).trans ?_
  · match a with
    | ⟨0, _⟩ => rfl
    | ⟨1, _⟩ => rfl
    | ⟨2, _⟩ => rfl
  · rfl

/-- The third result of the program: the joined array with its first two axes exchanged. -/
theorem result_joined (c : Dev nD) :
    (Pipeline.afterTail₀ cfgs (dats m) 0 (V0 m) [hostOps1] c main_v6 : S512x32x2048.Idx → EReal)
      = resJoined (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v3_2)
        = (dats m 0 c).arrAt 6 cfg0.N from Pipeline.withArrays_arr spec0 launch0.win.arr_inj c _ _ 6]
  rw [final_joined, V_main_arg0, found_ctx, found_win]
  funext j
  obtain ⟨t, b, s, rfl⟩ : ∃ (t : Fin 512) (b : Fin 32) (s : Fin 2048), j = ix3 t b s := ⟨j 0, j 1, j 2, eq_ix3 j⟩
  refine (transpose_apply _ _ _ (ix3 t b s) (ix3 b t s) (fun a => ?_)).trans ?_
  · match a with
    | ⟨0, _⟩ => rfl
    | ⟨1, _⟩ => rfl
    | ⟨2, _⟩ => rfl
  · rfl

/-- The first result of the program: the output array with its first two axes exchanged. -/
theorem result_out (c : Dev nD) :
    (Pipeline.afterTail₀ cfgs (dats m) 0 (V0 m) [hostOps1] c main_v4 : S512x32x1024.Idx → EReal)
      = resOut (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3_0)
        = (dats m 0 c).arrAt 4 cfg0.N from Pipeline.withArrays_arr spec0 launch0.win.arr_inj c _ _ 4]
  rw [final_out, V_main_arg0, found_ctx, found_win, found_wout]
  funext j
  obtain ⟨t, b, s, rfl⟩ : ∃ (t : Fin 512) (b : Fin 32) (s : Fin 1024), j = ix3 t b s := ⟨j 0, j 1, j 2, eq_ix3 j⟩
  refine (transpose_apply _ _ _ (ix3 t b s) (ix3 b t s) (fun a => ?_)).trans ?_
  · match a with
    | ⟨0, _⟩ => rfl
    | ⟨1, _⟩ => rfl
    | ⟨2, _⟩ => rfl
  · rfl

end Cert.Attn.Tail

end
-- ==== Proof.lean ====
/-
  The tiled attention program and the whole-array attention program compute the same three arrays.

  Both programs compute, for every batch entry b and target position t, the attention weights of the row (the softmax
  of the scores of the projected input row against the batch entry's context), the context blended by those weights
  joined with the input row, and tanh of the joined row against the output weights; both store the three at
  (t, b, ·). The tiled program does so 128 rows at a time and changes float format on the way into its matrix
  products; on the extended reals a change of format is the identity, a matrix product into a zero accumulator is the
  plain sum of products, and the tiling changes nothing because every row's softmax lies inside one block. Each
  program's results are shown to be the three specified results (Spec) of its own arguments — the tiled program's in
  Tail, the whole-array program's in RefRow — and the two memories agree on the arguments. No law that fails at an
  infinity is used, so the finiteness of the inputs is never opened.
  The three frames: the two tiled programs' frames are the generated ones; the whole-array program has no kernel, and
  its frame is its generated run with the results dropped. The idealization rewrote nothing, so there is nothing to
  preserve.
-/
import proofs.«181945_j1580547975047_1_alg».proof.Defs
import proofs.«181945_j1580547975047_1_alg».proof.Proof.Gen.Kernel
import proofs.«181945_j1580547975047_1_alg».proof.Proof.Gen.Kernel.Frame
import proofs.«181945_j1580547975047_1_alg».proof.Proof.Gen.KernelIdeal
import proofs.«181945_j1580547975047_1_alg».proof.Proof.Gen.KernelIdeal.Frame
import proofs.«181945_j1580547975047_1_alg».proof.Proof.Gen.ReferenceIdeal
import proofs.«181945_j1580547975047_1_alg».proof.Proof.Gen.Pre_finite_inputs
import proofs.«181945_j1580547975047_1_alg».proof.Proof.Gen.ReferenceIdeal.Run
import proofs.«181945_j1580547975047_1_alg».proof.Proof.Gen.ReferenceIdeal.Read
import proofs.«181945_j1580547975047_1_alg».proof.Proof.RefRow
import proofs.«181945_j1580547975047_1_alg».proof.Proof.Tail
import Idealize.ShloMosaic.Adequacy
import Idealize.ShloMosaic.Init

noncomputable section

namespace Cert.Proof

open Idealize.ShloMosaic Idealize.SL.Sem Cert.Attn

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

theorem preserves : Cert.preserves_Kernel_KernelIdeal := trivial

/-- The tiled program's run, each result named: the frame run's post read at the three results (the host
    transposes of the three arrays the region leaves) and at the four argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
            = resOut (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v5)
            = resWeight (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v6)
            = resJoined (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  open Cert.KernelIdeal Cert.KernelIdeal.Gen in
  (θ_run defs _ _).mono (fun _ h c =>
    ⟨((h c).2 main_v4 (Pipeline.mem_restRefs_of main_v4 (by decide) (by decide))).trans (Cert.Attn.Tail.result_out m c),
     ((h c).2 main_v5 (Pipeline.mem_restRefs_of main_v5 (by decide) (by decide))).trans (Cert.Attn.Tail.result_weight m c),
     ((h c).2 main_v6 (Pipeline.mem_restRefs_of main_v6 (by decide) (by decide))).trans (Cert.Attn.Tail.result_joined m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

/-- The two programs, from memories that agree on the arguments, end with the same three arrays: each program's
    results are the three specified results of its own arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, kernel_run m ρ, ?_⟩
  refine (θ_run Cert.ReferenceIdeal.defs _ _).mono (fun _ h c => ?_) (Cert.ReferenceIdeal.Value.run (F := Ideal) m' ρ')
  obtain ⟨h17, h19, h18, hrest⟩ := h c
  obtain ⟨a0, a1, a2, a3⟩ := hagree c
  refine ⟨?_, ?_, ?_, hrest⟩
  · rw [h17, Cert.ReferenceIdeal.Read.val_main_v17_eq, Cert.Attn.Ref.ref_out, a0, a1, a2, a3]
  · rw [h19, Cert.ReferenceIdeal.Read.val_main_v19_eq, Cert.Attn.Ref.ref_weight, a0, a1, a2]
  · rw [h18, Cert.ReferenceIdeal.Read.val_main_v18_eq, Cert.Attn.Ref.ref_joined, a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
